-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x577x64 : Shape := ⟨4, ![16, 12, 577, 64]⟩
abbrev S16x1x577x577 : Shape := ⟨4, ![16, 1, 577, 577]⟩
abbrev S16x576x2 : Shape := ⟨3, ![16, 576, 2]⟩
abbrev S16x577x768 : Shape := ⟨3, ![16, 577, 768]⟩
abbrev S_ : Shape := ⟨0, ![]⟩

class Facts : Prop where
  bcast_S_S16x12x577x64 : S_.BroadcastsInDim S16x12x577x64 (![] : Fin 0 → Fin S16x12x577x64.rank)
  reducesTo_S16x12x577x64_S_d0_1_2_3 : S16x12x577x64.ReducesTo [0, 1, 2, 3] S_
  h_S_ : 0 < S_.numel
  bcast_S_S16x576x2 : S_.BroadcastsInDim S16x576x2 (![] : Fin 0 → Fin S16x576x2.rank)
  reducesTo_S16x576x2_S_d0_1_2 : S16x576x2.ReducesTo [0, 1, 2] S_
  bcast_S_S16x577x768 : S_.BroadcastsInDim S16x577x768 (![] : Fin 0 → Fin S16x577x768.rank)
  reducesTo_S16x577x768_S_d0_1_2 : S16x577x768.ReducesTo [0, 1, 2] S_

variable [Facts]

def fn_part1 {F : FTy → Type} [FloatOps F] (main_arg5 : FVec F S16x577x768 .f32) (main_v13 : IVec S_ 1) (main_v16 : IVec S16x576x2 1) : IVec S_ 1 :=
  let main_c_5 : IVec S_ 1 := constantI S_ 1 1#1
  let main_v17 : IVec S_ 1 := (fun x v => Host.reduce IntOp.andi x v reducesTo_S16x576x2_S_d0_1_2 h_S_) main_v16 main_c_5
  let main_v18 : IVec S_ 1 := andi main_v13 main_v17
  let main_v19 : FVec F S16x577x768 .f32 := Host.absf main_arg5
  let main_cst_6 : FVec F S_ .f32 := constant S_ .f32 0x7F800000#32
  let main_v20 : FVec F S16x577x768 .f32 := broadcastInDim S16x577x768 ![] bcast_S_S16x577x768 main_cst_6
  let main_v21 : IVec S16x577x768 1 := cmpf .olt main_v19 main_v20
  let main_c_7 : IVec S_ 1 := constantI S_ 1 1#1
  let main_v22 : IVec S_ 1 := (fun x v => Host.reduce IntOp.andi x v reducesTo_S16x577x768_S_d0_1_2 h_S_) main_v21 main_c_7
  let main_v23 : IVec S_ 1 := andi main_v18 main_v22
  main_v23

def fn {F : FTy → Type} [FloatOps F] (main_arg0 : FVec F S16x12x577x64 .f32) (main_arg1 : FVec F S16x12x577x64 .f32) (main_arg2 : FVec F S16x12x577x64 .f32) (main_arg3 : IVec S16x1x577x577 1) (main_arg4 : FVec F S16x576x2 .f32) (main_arg5 : FVec F S16x577x768 .f32) : IVec S_ 1 :=
  let main_v0 : FVec F S16x12x577x64 .f32 := Host.absf main_arg0
  let main_cst : FVec F S_ .f32 := constant S_ .f32 0x7F800000#32
  let main_v1 : FVec F S16x12x577x64 .f32 := broadcastInDim S16x12x577x64 ![] bcast_S_S16x12x577x64 main_cst
  let main_v2 : IVec S16x12x577x64 1 := cmpf .olt main_v0 main_v1
  let main_c : IVec S_ 1 := constantI S_ 1 1#1
  let main_v3 : IVec S_ 1 := (fun x v => Host.reduce IntOp.andi x v reducesTo_S16x12x577x64_S_d0_1_2_3 h_S_) main_v2 main_c
  let main_v4 : FVec F S16x12x577x64 .f32 := Host.absf main_arg1
  let main_cst_0 : FVec F S_ .f32 := constant S_ .f32 0x7F800000#32
  let main_v5 : FVec F S16x12x577x64 .f32 := broadcastInDim S16x12x577x64 ![] bcast_S_S16x12x577x64 main_cst_0
  let main_v6 : IVec S16x12x577x64 1 := cmpf .olt main_v4 main_v5
  let main_c_1 : IVec S_ 1 := constantI S_ 1 1#1
  let main_v7 : IVec S_ 1 := (fun x v => Host.reduce IntOp.andi x v reducesTo_S16x12x577x64_S_d0_1_2_3 h_S_) main_v6 main_c_1
  let main_v8 : IVec S_ 1 := andi main_v3 main_v7
  let main_v9 : FVec F S16x12x577x64 .f32 := Host.absf main_arg2
  let main_cst_2 : FVec F S_ .f32 := constant S_ .f32 0x7F800000#32
  let main_v10 : FVec F S16x12x577x64 .f32 := broadcastInDim S16x12x577x64 ![] bcast_S_S16x12x577x64 main_cst_2
  let main_v11 : IVec S16x12x577x64 1 := cmpf .olt main_v9 main_v10
  let main_c_3 : IVec S_ 1 := constantI S_ 1 1#1
  let main_v12 : IVec S_ 1 := (fun x v => Host.reduce IntOp.andi x v reducesTo_S16x12x577x64_S_d0_1_2_3 h_S_) main_v11 main_c_3
  let main_v13 : IVec S_ 1 := andi main_v8 main_v12
  let main_v14 : FVec F S16x576x2 .f32 := Host.absf main_arg4
  let main_cst_4 : FVec F S_ .f32 := constant S_ .f32 0x7F800000#32
  let main_v15 : FVec F S16x576x2 .f32 := broadcastInDim S16x576x2 ![] bcast_S_S16x576x2 main_cst_4
  let main_v16 : IVec S16x576x2 1 := cmpf .olt main_v14 main_v15
  fn_part1 (F := F) main_arg5 main_v13 main_v16
-- ==== Kernel.lean ====
abbrev S16x12x577x64 : Shape := ⟨4, ![16, 12, 577, 64]⟩
abbrev S16x1x577x577 : Shape := ⟨4, ![16, 1, 577, 577]⟩
abbrev S16x576x2 : Shape := ⟨3, ![16, 576, 2]⟩
abbrev S16x577x768 : Shape := ⟨3, ![16, 577, 768]⟩
abbrev S_ : Shape := ⟨0, ![]⟩
abbrev S16x577x2 : Shape := ⟨3, ![16, 577, 2]⟩
abbrev S16x577x577 : Shape := ⟨3, ![16, 577, 577]⟩
abbrev S1x4x577x64 : Shape := ⟨4, ![1, 4, 577, 64]⟩
abbrev S1x577x2 : Shape := ⟨3, ![1, 577, 2]⟩
abbrev S1x577x768 : Shape := ⟨3, ![1, 577, 768]⟩
abbrev S1x577x577 : Shape := ⟨3, ![1, 577, 577]⟩
abbrev S577x577 : Shape := ⟨2, ![577, 577]⟩
abbrev S577x2 : Shape := ⟨2, ![577, 2]⟩
abbrev S577x768 : Shape := ⟨2, ![577, 768]⟩
abbrev S2x577 : Shape := ⟨2, ![2, 577]⟩
abbrev S1x577 : Shape := ⟨2, ![1, 577]⟩
abbrev S577x1 : Shape := ⟨2, ![577, 1]⟩
abbrev S577 : Shape := ⟨1, ![577]⟩
abbrev S1x1x577x64 : Shape := ⟨4, ![1, 1, 577, 64]⟩
abbrev S577x64 : Shape := ⟨2, ![577, 64]⟩

abbrev nBuf : Space → Nat
  | .hbm => 12
  | .vmem => 15
  | .smem => 0
  | _ => 0

abbrev bufTy : (tb : Table) → Fin (tcTables nBuf tb) → BufTy
  | .hbm, ⟨0, _⟩ => ⟨S16x12x577x64, .f32⟩
  | .hbm, ⟨1, _⟩ => ⟨S16x12x577x64, .f32⟩
  | .hbm, ⟨2, _⟩ => ⟨S16x12x577x64, .f32⟩
  | .hbm, ⟨3, _⟩ => ⟨S16x1x577x577, .i1⟩
  | .hbm, ⟨4, _⟩ => ⟨S16x576x2, .f32⟩
  | .hbm, ⟨5, _⟩ => ⟨S16x577x768, .f32⟩
  | .hbm, ⟨6, _⟩ => ⟨S_, .i32⟩
  | .hbm, ⟨7, _⟩ => ⟨S_, .f32⟩
  | .hbm, ⟨8, _⟩ => ⟨S16x577x2, .f32⟩
  | .hbm, ⟨9, _⟩ => ⟨S16x577x577, .i1⟩
  | .hbm, ⟨10, _⟩ => ⟨S16x577x577, .i32⟩
  | .hbm, ⟨11, _⟩ => ⟨S16x12x577x64, .f32⟩
  | .local _ .vmem, ⟨0, _⟩ => ⟨S1x4x577x64, .f32⟩
  | .local _ .vmem, ⟨1, _⟩ => ⟨S1x4x577x64, .f32⟩
  | .local _ .vmem, ⟨2, _⟩ => ⟨S1x4x577x64, .f32⟩
  | .local _ .vmem, ⟨3, _⟩ => ⟨S1x4x577x64, .f32⟩
  | .local _ .vmem, ⟨4, _⟩ => ⟨S1x4x577x64, .f32⟩
  | .local _ .vmem, ⟨5, _⟩ => ⟨S1x4x577x64, .f32⟩
  | .local _ .vmem, ⟨6, _⟩ => ⟨S1x577x2, .f32⟩
  | .local _ .vmem, ⟨7, _⟩ => ⟨S1x577x2, .f32⟩
  | .local _ .vmem, ⟨8, _⟩ => ⟨S1x577x768, .f32⟩
  | .local _ .vmem, ⟨9, _⟩ => ⟨S1x577x768, .f32⟩
  | .local _ .vmem, ⟨10, _⟩ => ⟨S1x577x577, .i32⟩
  | .local _ .vmem, ⟨11, _⟩ => ⟨S1x577x577, .i32⟩
  | .local _ .vmem, ⟨12, _⟩ => ⟨S1x4x577x64, .f32⟩
  | .local _ .vmem, ⟨13, _⟩ => ⟨S1x4x577x64, .f32⟩
  | .local _ .vmem, ⟨14, _⟩ => ⟨S577x577, .f32⟩
  | _, _ => ⟨S16x12x577x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 3], ![false, false]⟩

@[reducible] def k0_t1_loop : Scf.Loop 32 :=
  let c0_i32_5 : BitVec 32 := 0#32
  let c4_i32 : BitVec 32 := 4#32
  let v7 : BitVec 32 := Scalar.addi c0_i32_5 c4_i32
  let c1_i32 : BitVec 32 := 1#32
  ⟨c0_i32_5, v7, c1_i32⟩
def k0_off1 (k0_t1 : Fin k0_t1_loop.trips) : Fin 4 → Nat :=
  let c0_7 : Index := 0#32
  let c0_i32_5 : BitVec 32 := 0#32
  let c1_i32 : BitVec 32 := 1#32
  let arg10 : BitVec 32 := Scf.iv c0_i32_5 c1_i32 k0_t1
  let v8 : Index := Scalar.indexCast arg10
  let c0_8 : Index := 0#32
  let c0_9 : Index := 0#32
  ![0, v8.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x577x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x577x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x577x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x577x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x577x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x577x577 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x577x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  pads_S16x576x2_S16x577x2_000_100_000 : S16x576x2.Pads (![0, 1, 0] : Fin 3 → Nat) ![0, 0, 0] ![0, 0, 0] S16x577x2
  h_S_ : 0 < S_.numel
  shapeCasts_S16x1x577x577_S16x577x577 : S16x1x577x577.ShapeCasts S16x577x577
  natLt_1_32 : 1 < 32
  inb_S1x577x2_S1x577x2_0_0_0 : ∀ a, (![0, 0, 0] : Fin 3 → Nat) a + S1x577x2.size a ≤ S1x577x2.size a
  h_S1x577x2 : 0 < S1x577x2.numel
  shapeCasts_S1x577x2_S577x2 : S1x577x2.ShapeCasts S577x2
  inb_S1x577x768_S1x577x768_0_0_0 : ∀ a, (![0, 0, 0] : Fin 3 → Nat) a + S1x577x768.size a ≤ S1x577x768.size a
  h_S1x577x768 : 0 < S1x577x768.numel
  shapeCasts_S1x577x768_S577x768 : S1x577x768.ShapeCasts S577x768
  transposes_S577x2_p1_0_S2x577 : S577x2.Transposes [1, 0] S2x577
  slices_S2x577_o0_0_S1x577 : S2x577.Slices ![0, 0] S1x577
  slices_S2x577_o1_0_S1x577 : S2x577.Slices ![1, 0] S1x577
  slices_S577x2_o0_0_S577x1 : S577x2.Slices ![0, 0] S577x1
  slices_S577x2_o0_1_S577x1 : S577x2.Slices ![0, 1] S577x1
  broadcasts_S577x1_S577x577 : S577x1.Broadcasts S577x577
  broadcasts_S1x577_S577x577 : S1x577.Broadcasts S577x577
  reduces_S577x768_S577 : S577x768.Reduces [1] S577
  shapeCasts_S577_S577x1 : S577.ShapeCasts S577x1
  broadcasts_S577x1_S577x768 : S577x1.Broadcasts S577x768
  bitsLt_bf16_f32 : FTy.bits .bf16 < FTy.bits .f32
  iota_S577x577_d0_w32 : S577x577.Iotas .tc 32 [0]
  iota_S577x577_d1_w32 : S577x577.Iotas .tc 32 [1]
  inb_S577x577_S577x577_0_0 : ∀ a, (![0, 0] : Fin 2 → Nat) a + S577x577.size a ≤ S577x577.size a
  h_S577x577 : 0 < S577x577.numel
  shapeCasts_S577x577_S577x577 : S577x577.ShapeCasts S577x577
  inb_S1x577x577_S1x577x577_0_0_0 : ∀ a, (![0, 0, 0] : Fin 3 → Nat) a + S1x577x577.size a ≤ S1x577x577.size a
  h_S1x577x577 : 0 < S1x577x577.numel
  shapeCasts_S1x577x577_S577x577 : S1x577x577.ShapeCasts S577x577
  h_S1x1x577x64 : 0 < S1x1x577x64.numel
  shapeCasts_S1x1x577x64_S577x64 : S1x1x577x64.ShapeCasts S577x64
  reduces_S577x577_S577 : S577x577.Reduces [1] S577
  shapeCasts_S577x64_S1x1x577x64 : S577x64.ShapeCasts S1x1x577x64
  dot_S577x768_S577x768_S577x577_1_1_0_0_n_n_wf : DotDims.WF S577x768 S577x768 S577x577 [1] [1] [0] [0] [] []
  dot_S577x64_S577x64_S577x577_1_1_0_0_n_n_wf : DotDims.WF S577x64 S577x64 S577x577 [1] [1] [0] [0] [] []
  dot_S577x577_S577x64_S577x64_1_0_0_1_n_n_wf : DotDims.WF S577x577 S577x64 S577x64 [1] [0] [0] [1] [] []
  hrank0 : 0 < grid0.rank
  k0_t1_ok : k0_t1_loop.OK
  k0_off1_inb : ∀ k0_t1 : Fin k0_t1_loop.trips, ∀ a, (k0_off1 k0_t1) a + S1x1x577x64.size a ≤ S1x4x577x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x577x64.size a ≤ S16x12x577x64.size a
  hwx0_0 : ∀ i : grid0.Coords, EltTy.bits .f32 = 32 ∨ (Rect.block (s := S16x12x577x64) S1x4x577x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x577x64.size a ≤ S16x12x577x64.size a
  hwx0_1 : ∀ i : grid0.Coords, EltTy.bits .f32 = 32 ∨ (Rect.block (s := S16x12x577x64) S1x4x577x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x577x64.size a ≤ S16x12x577x64.size a
  hwx0_2 : ∀ i : grid0.Coords, EltTy.bits .f32 = 32 ∨ (Rect.block (s := S16x12x577x64) S1x4x577x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x577x2.size a ≤ S16x577x2.size a
  hwx0_3 : ∀ i : grid0.Coords, EltTy.bits .f32 = 32 ∨ (Rect.block (s := S16x577x2) S1x577x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x577x768.size a ≤ S16x577x768.size a
  hwx0_4 : ∀ i : grid0.Coords, EltTy.bits .f32 = 32 ∨ (Rect.block (s := S16x577x768) S1x577x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x577x577.size a ≤ S16x577x577.size a
  hwx0_5 : ∀ i : grid0.Coords, EltTy.bits .i32 = 32 ∨ (Rect.block (s := S16x577x577) S1x577x577.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x577x64.size a ≤ S16x12x577x64.size a
  hwx0_6 : ∀ i : grid0.Coords, EltTy.bits .f32 = 32 ∨ (Rect.block (s := S16x12x577x64) S1x4x577x64.size (cc0_transform_6 i) (hinb0_6 i)).WholeWords (EltTy.packing .f32)

variable [Facts₀]

def dot_S577x768_S577x768_S577x577_1_1_0_0_n_n : DotDims S577x768 S577x768 S577x577 where
  lhsContracting := [1]
  rhsContracting := [1]
  lhsNonContracting := [0]
  rhsNonContracting := [0]
  lhsBatch := []
  rhsBatch := []
  wf := dot_S577x768_S577x768_S577x577_1_1_0_0_n_n_wf
def dot_S577x64_S577x64_S577x577_1_1_0_0_n_n : DotDims S577x64 S577x64 S577x577 where
  lhsContracting := [1]
  rhsContracting := [1]
  lhsNonContracting := [0]
  rhsNonContracting := [0]
  lhsBatch := []
  rhsBatch := []
  wf := dot_S577x64_S577x64_S577x577_1_1_0_0_n_n_wf
def dot_S577x577_S577x64_S577x64_1_0_0_1_n_n : DotDims S577x577 S577x64 S577x64 where
  lhsContracting := [1]
  rhsContracting := [0]
  lhsNonContracting := [0]
  rhsNonContracting := [1]
  lhsBatch := []
  rhsBatch := []
  wf := dot_S577x577_S577x64_S577x64_1_0_0_1_n_n_wf

abbrev win0_0 : Pipeline.Window sig grid0 :=
  Pipeline.Window.ofSpec (Memref.whole main_arg0) S1x4x577x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x577x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x577x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x577x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x577x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x577x577.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4x577x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x12x577x64 : Shape := ⟨4, ![16, 12, 577, 64]⟩
abbrev S16x1x577x577 : Shape := ⟨4, ![16, 1, 577, 577]⟩
abbrev S16x576x2 : Shape := ⟨3, ![16, 576, 2]⟩
abbrev S16x577x768 : Shape := ⟨3, ![16, 577, 768]⟩
abbrev S_ : Shape := ⟨0, ![]⟩
abbrev S16x12x577x577 : Shape := ⟨4, ![16, 12, 577, 577]⟩
abbrev S16x576x768 : Shape := ⟨3, ![16, 576, 768]⟩
abbrev S16x576x1x2 : Shape := ⟨4, ![16, 576, 1, 2]⟩
abbrev S16x1x576x2 : Shape := ⟨4, ![16, 1, 576, 2]⟩
abbrev S16x576x576x2 : Shape := ⟨4, ![16, 576, 576, 2]⟩
abbrev S16x576x576 : Shape := ⟨3, ![16, 576, 576]⟩
abbrev S16x576 : Shape := ⟨2, ![16, 576]⟩
abbrev S16x576x1 : Shape := ⟨3, ![16, 576, 1]⟩
abbrev S16x1x576x576 : Shape := ⟨4, ![16, 1, 576, 576]⟩
abbrev S1 : Shape := ⟨1, ![1]⟩
abbrev S2 : Shape := ⟨1, ![2]⟩
abbrev S16x12x576x576 : Shape := ⟨4, ![16, 12, 576, 576]⟩
abbrev S16x12x577 : Shape := ⟨3, ![16, 12, 577]⟩
abbrev S16x12x577x1 : Shape := ⟨4, ![16, 12, 577, 1]⟩

abbrev nBuf : Space → Nat
  | .hbm => 73
  | .vmem => 0
  | .smem => 0
  | _ => 0

abbrev bufTy : (tb : Table) → Fin (tcTables nBuf tb) → BufTy
  | .hbm, ⟨0, _⟩ => ⟨S16x12x577x64, .f32⟩
  | .hbm, ⟨1, _⟩ => ⟨S16x12x577x64, .f32⟩
  | .hbm, ⟨2, _⟩ => ⟨S16x12x577x64, .f32⟩
  | .hbm, ⟨3, _⟩ => ⟨S16x1x577x577, .i1⟩
  | .hbm, ⟨4, _⟩ => ⟨S16x576x2, .f32⟩
  | .hbm, ⟨5, _⟩ => ⟨S16x577x768, .f32⟩
  | .hbm, ⟨6, _⟩ => ⟨S_, .f32⟩
  | .hbm, ⟨7, _⟩ => ⟨S16x12x577x64, .f32⟩
  | .hbm, ⟨8, _⟩ => ⟨S16x12x577x64, .f32⟩
  | .hbm, ⟨9, _⟩ => ⟨S16x12x577x577, .f32⟩
  | .hbm, ⟨10, _⟩ => ⟨S16x576x768, .f32⟩
  | .hbm, ⟨11, _⟩ => ⟨S16x576x1x2, .f32⟩
  | .hbm, ⟨12, _⟩ => ⟨S16x1x576x2, .f32⟩
  | .hbm, ⟨13, _⟩ => ⟨S16x576x576x2, .f32⟩
  | .hbm, ⟨14, _⟩ => ⟨S16x576x576x2, .f32⟩
  | .hbm, ⟨15, _⟩ => ⟨S16x576x576x2, .f32⟩
  | .hbm, ⟨16, _⟩ => ⟨S16x576x576x2, .f32⟩
  | .hbm, ⟨17, _⟩ => ⟨S_, .f32⟩
  | .hbm, ⟨18, _⟩ => ⟨S16x576x576, .f32⟩
  | .hbm, ⟨19, _⟩ => ⟨S_, .f32⟩
  | .hbm, ⟨20, _⟩ => ⟨S16x576x576, .f32⟩
  | .hbm, ⟨21, _⟩ => ⟨S16x576x576, .f32⟩
  | .hbm, ⟨22, _⟩ => ⟨S16x576x576, .f32⟩
  | .hbm, ⟨23, _⟩ => ⟨S_, .f32⟩
  | .hbm, ⟨24, _⟩ => ⟨S16x576x576, .f32⟩
  | .hbm, ⟨25, _⟩ => ⟨S16x576x576, .f32⟩
  | .hbm, ⟨26, _⟩ => ⟨S16x576x768, .f32⟩
  | .hbm, ⟨27, _⟩ => ⟨S_, .f32⟩
  | .hbm, ⟨28, _⟩ => ⟨S16x576, .f32⟩
  | .hbm, ⟨29, _⟩ => ⟨S16x576x1, .f32⟩
  | .hbm, ⟨30, _⟩ => ⟨S16x576x1, .f32⟩
  | .hbm, ⟨31, _⟩ => ⟨S_, .f32⟩
  | .hbm, ⟨32, _⟩ => ⟨S16x576x1, .f32⟩
  | .hbm, ⟨33, _⟩ => ⟨S16x576x1, .f32⟩
  | .hbm, ⟨34, _⟩ => ⟨S16x576x768, .f32⟩
  | .hbm, ⟨35, _⟩ => ⟨S16x576x768, .f32⟩
  | .hbm, ⟨36, _⟩ => ⟨S16x576x576, .f32⟩
  | .hbm, ⟨37, _⟩ => ⟨S_, .f32⟩
  | .hbm, ⟨38, _⟩ => ⟨S16x576x576, .f32⟩
  | .hbm, ⟨39, _⟩ => ⟨S16x576x576, .f32⟩
  | .hbm, ⟨40, _⟩ => ⟨S_, .f32⟩
  | .hbm, ⟨41, _⟩ => ⟨S16x576x576, .f32⟩
  | .hbm, ⟨42, _⟩ => ⟨S16x576x576, .f32⟩
  | .hbm, ⟨43, _⟩ => ⟨S16x576x576, .f32⟩
  | .hbm, ⟨44, _⟩ => ⟨S16x1x576x576, .f32⟩
  | .hbm, ⟨45, _⟩ => ⟨S16x1x576x576, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S16x12x576x576, .f32⟩
  | .hbm, ⟨52, _⟩ => ⟨S16x12x577x577, .f32⟩
  | .hbm, ⟨53, _⟩ => ⟨S_, .f32⟩
  | .hbm, ⟨54, _⟩ => ⟨S_, .f32⟩
  | .hbm, ⟨55, _⟩ => ⟨S16x12x577x577, .i1⟩
  | .hbm, ⟨56, _⟩ => ⟨S16x12x577x577, .f32⟩
  | .hbm, ⟨57, _⟩ => ⟨S16x12x577x577, .f32⟩
  | .hbm, ⟨58, _⟩ => ⟨S_, .f32⟩
  | .hbm, ⟨59, _⟩ => ⟨S16x12x577, .f32⟩
  | .hbm, ⟨60, _⟩ => ⟨S_, .f32⟩
  | .hbm, ⟨61, _⟩ => ⟨S16x12x577, .f32⟩
  | .hbm, ⟨62, _⟩ => ⟨S16x12x577, .f32⟩
  | .hbm, ⟨63, _⟩ => ⟨S16x12x577x1, .f32⟩
  | .hbm, ⟨64, _⟩ => ⟨S16x12x577x577, .f32⟩
  | .hbm, ⟨65, _⟩ => ⟨S16x12x577x577, .f32⟩
  | .hbm, ⟨66, _⟩ => ⟨S16x12x577x577, .f32⟩
  | .hbm, ⟨67, _⟩ => ⟨S_, .f32⟩
  | .hbm, ⟨68, _⟩ => ⟨S16x12x577, .f32⟩
  | .hbm, ⟨69, _⟩ => ⟨S16x12x577x1, .f32⟩
  | .hbm, ⟨70, _⟩ => ⟨S16x12x577x577, .f32⟩
  | .hbm, ⟨71, _⟩ => ⟨S16x12x577x577, .f32⟩
  | .hbm, ⟨72, _⟩ => ⟨S16x12x577x64, .f32⟩
  | _, _ => ⟨S16x12x577x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]

class Facts₀ : Prop where
  bcast_S_S16x12x577x64 : S_.BroadcastsInDim S16x12x577x64 (![] : Fin 0 → Fin S16x12x577x64.rank)
  slices_S16x577x768_S16x576x768_0_1_0 : S16x577x768.Slices ![0, 1, 0] S16x576x768
  bcast_S16x576x2_S16x576x1x2_0_1_3 : S16x576x2.BroadcastsInDim S16x576x1x2 (![0, 1, 3] : Fin 3 → Fin S16x576x1x2.rank)
  bcast_S16x576x2_S16x1x576x2_0_2_3 : S16x576x2.BroadcastsInDim S16x1x576x2 (![0, 2, 3] : Fin 3 → Fin S16x1x576x2.rank)
  bcast_S16x576x1x2_S16x576x576x2_0_1_2_3 : S16x576x1x2.BroadcastsInDim S16x576x576x2 (![0, 1, 2, 3] : Fin 4 → Fin S16x576x576x2.rank)
  bcast_S16x1x576x2_S16x576x576x2_0_1_2_3 : S16x1x576x2.BroadcastsInDim S16x576x576x2 (![0, 1, 2, 3] : Fin 4 → Fin S16x576x576x2.rank)
  reducesTo_S16x576x576x2_S16x576x576_d3 : S16x576x576x2.ReducesTo [3] S16x576x576
  h_S_ : 0 < S_.numel
  bcast_S_S16x576x576 : S_.BroadcastsInDim S16x576x576 (![] : Fin 0 → Fin S16x576x576.rank)
  reducesTo_S16x576x768_S16x576_d2 : S16x576x768.ReducesTo [2] S16x576
  bcast_S16x576_S16x576x1_0_1 : S16x576.BroadcastsInDim S16x576x1 (![0, 1] : Fin 2 → Fin S16x576x1.rank)
  bcast_S_S16x576x1 : S_.BroadcastsInDim S16x576x1 (![] : Fin 0 → Fin S16x576x1.rank)
  bcast_S16x576x1_S16x576x768_0_1_2 : S16x576x1.BroadcastsInDim S16x576x768 (![0, 1, 2] : Fin 3 → Fin S16x576x768.rank)
  bcast_S16x576x576_S16x1x576x576_0_2_3 : S16x576x576.BroadcastsInDim S16x1x576x576 (![0, 2, 3] : Fin 3 → Fin S16x1x576x576.rank)
  bcast_S_S1 : S_.BroadcastsInDim S1 (![] : Fin 0 → Fin S1.rank)
  concatenates_S1_S1_S2_d0 : Shape.Concatenates [S1, S1] S2 0
  bcast_S16x1x576x576_S16x12x576x576_0_1_2_3 : S16x1x576x576.BroadcastsInDim S16x12x576x576 (![0, 1, 2, 3] : Fin 4 → Fin S16x12x576x576.rank)
  bcast_S16x1x577x577_S16x12x577x577_0_1_2_3 : S16x1x577x577.BroadcastsInDim S16x12x577x577 (![0, 1, 2, 3] : Fin 4 → Fin S16x12x577x577.rank)
  bcast_S_S16x12x577x577 : S_.BroadcastsInDim S16x12x577x577 (![] : Fin 0 → Fin S16x12x577x577.rank)
  reducesTo_S16x12x577x577_S16x12x577_d3 : S16x12x577x577.ReducesTo [3] S16x12x577
  bcast_S_S16x12x577 : S_.BroadcastsInDim S16x12x577 (![] : Fin 0 → Fin S16x12x577.rank)
  bcast_S16x12x577_S16x12x577x1_0_1_2 : S16x12x577.BroadcastsInDim S16x12x577x1 (![0, 1, 2] : Fin 3 → Fin S16x12x577x1.rank)
  bcast_S16x12x577x1_S16x12x577x577_0_1_2_3 : S16x12x577x1.BroadcastsInDim S16x12x577x577 (![0, 1, 2, 3] : Fin 4 → Fin S16x12x577x577.rank)
  dot_S16x12x577x64_S16x12x577x64_S16x12x577x577_3_3_2_2_01_01_wf : DotDims.WF S16x12x577x64 S16x12x577x64 S16x12x577x577 [3] [3] [2] [2] [0, 1] [0, 1]
  dot_S16x576x768_S16x576x768_S16x576x576_2_2_1_1_0_0_wf : DotDims.WF S16x576x768 S16x576x768 S16x576x576 [2] [2] [1] [1] [0] [0]
  scatter_S16x12x577x577_S2_S16x12x576x576_0123_n_23_0_wf : ScatterDims.WF S16x12x577x577 S2 S16x12x576x576 [0, 1, 2, 3] [] [2, 3] 0
  dot_S16x12x577x577_S16x12x577x64_S16x12x577x64_3_2_2_3_01_01_wf : DotDims.WF S16x12x577x577 S16x12x577x64 S16x12x577x64 [3] [2] [2] [3] [0, 1] [0, 1]

variable [Facts₀]

def dot_S16x12x577x64_S16x12x577x64_S16x12x577x577_3_3_2_2_01_01 : DotDims S16x12x577x64 S16x12x577x64 S16x12x577x577 where
  lhsContracting := [3]
  rhsContracting := [3]
  lhsNonContracting := [2]
  rhsNonContracting := [2]
  lhsBatch := [0, 1]
  rhsBatch := [0, 1]
  wf := dot_S16x12x577x64_S16x12x577x64_S16x12x577x577_3_3_2_2_01_01_wf
def dot_S16x576x768_S16x576x768_S16x576x576_2_2_1_1_0_0 : DotDims S16x576x768 S16x576x768 S16x576x576 where
  lhsContracting := [2]
  rhsContracting := [2]
  lhsNonContracting := [1]
  rhsNonContracting := [1]
  lhsBatch := [0]
  rhsBatch := [0]
  wf := dot_S16x576x768_S16x576x768_S16x576x576_2_2_1_1_0_0_wf
def scatter_S16x12x577x577_S2_S16x12x576x576_0123_n_23_0 : ScatterDims S16x12x577x577 S2 S16x12x576x576 where
  updateWindowDims := [0, 1, 2, 3]
  insertedWindowDims := []
  scatterDimsToOperandDims := [2, 3]
  indexVectorDim := 0
  wf := scatter_S16x12x577x577_S2_S16x12x576x576_0123_n_23_0_wf
def dot_S16x12x577x577_S16x12x577x64_S16x12x577x64_3_2_2_3_01_01 : DotDims S16x12x577x577 S16x12x577x64 S16x12x577x64 where
  lhsContracting := [3]
  rhsContracting := [2]
  lhsNonContracting := [2]
  rhsNonContracting := [3]
  lhsBatch := [0, 1]
  rhsBatch := [0, 1]
  wf := dot_S16x12x577x577_S16x12x577x64_S16x12x577x64_3_2_2_3_01_01_wf

class Facts : Prop extends Facts₀ where

variable [Facts]
-- ==== Proof.BitsBodyShared.lean ====
/-
  What the two cases of the kernel body are stated over. The grid is 16 batches × 3 blocks of four heads, the head block
  the fast axis; the body branches once, on "this is the first head block of its batch" (points 0, 3, …, 45), where it
  computes the penalty matrix into its scratch; at the other points it reads the scratch as the point before left it.
  Here: that condition decided over the grid, every window live at every point, the staging and scratch memrefs by
  name, and the region invariant with the scratch held at some contents.
-/
import proofs.«156862_j47253230191316_2_alg».proof.Proof.Gen.Kernel.Frame
import proofs.«156862_j47253230191316_2_alg».proof.Proof.Gen.Kernel.Skeleton
import proofs.«156862_j47253230191316_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition from the grid coordinates: the head-block coordinate is zero. -/
abbrev cond0_0 (i : grid0.Coords) : Prop := (Scalar.cmpi .ne (Scalar.extui (Scalar.cmpi .eq (BitVec.ofNat 32 (i 1).val) 0#32)) 0#32) = 1#1

/-- It holds exactly at the points divisible by three: decided over the 48 points. -/
theorem hcond0_0 : ∀ t : Fin cfg0.N, cond0_0 (grid0.coords t) ↔ t.val % 3 = 0 :=
  (by decide +kernel : ∀ t : Fin grid0.N, cond0_0 (grid0.coords t) ↔ t.val % 3 = 0)

/-- No window is ever idle. -/
theorem liveAt0 : ∀ (w : Fin 7) (t : Fin cfg0.N), cfg0.idle w (grid0.coords t) = false := by decide +kernel

/-- Each window's current staging memref at point `t`, and its wholeness. -/
abbrev ms0_0 (t : Fin cfg0.N) : Memref sig .tc .vmem S1x4x577x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x577x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x577x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x577x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x577x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x577x577 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x577x64 .f32 := win0_6.stage (cfg0.slots t 6)
abbrev hs0_6 (t : Fin cfg0.N) : (ms0_6 t).IsWhole := hstage0_6 ((cfg0.slots t 6).cast nbuf0_6)

/-- The scratch: a whole buffer of the kernel's own, passed beside the windows. -/
abbrev scM0_0 : Memref sig .tc .vmem S577x577 .f32 := Memref.whole cc0_scratch0
/-- The scratch as a view: what it holds is stated through it. -/
abbrev VS0_0 : View sig .tc .vmem S577x577 .f32 := scM0_0.view
/-- One staging buffer of the output window, through which its contents are stated. -/
abbrev VO0_6 : View sig .tc .vmem S1x4x577x64 .f32 := (Memref.whole cc0_stg6_0 : Memref sig .tc .vmem S1x4x577x64 .f32).view

/-- The region invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.BitsBodyFirst.lean ====
/-
  The body at the first head block of a batch, run once on whole staging memrefs: it computes the penalty matrix from the
  position and embedding blocks, stores it whole into the scratch, reads it back, and then, head by head over the four
  heads of the block, stores each head's attention output into that head's slab of the output block. What the scratch
  and the output block end with are lists of stored pieces (last first): the witnesses the run itself finds.
-/
import proofs.«156862_j47253230191316_2_alg».proof.Proof.BitsBodyShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`L6`) and in the scratch (`LS0`) at a point where the head-block
    coordinate is zero, with the proof that from the inputs at their contents, the output block and the scratch at
    anything, the body runs to the continuation holding the inputs as they were and those pieces written. -/
noncomputable def kernelRun0_A (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) :
    Σ' (L6 : List (View.Piece (Elt F) S1x4x577x64 .f32)), { LS0 : List (View.Piece (Elt F) S577x577 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Body

end
-- ==== Proof.BitsBodyLater.lean ====
/-
  The body at a later head block of a batch, run once on whole staging memrefs: the branch is not taken, the scratch is
  read as the point before left it (the batch's penalty matrix) and handed back untouched, and head by head each
  head's attention output is stored into that head's slab of the output block.
-/
import proofs.«156862_j47253230191316_2_alg».proof.Proof.BitsBodyFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`L6`) at a point where the head-block coordinate is not zero, with
    the proof that from the inputs at their contents, the scratch at `xs0` and the output block at anything, the body
    runs to the continuation holding the inputs and the scratch as they were and those pieces written. -/
noncomputable def kernelRun0_B (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : ¬cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (xs0 : Vec F S577x577 .f32) :
    { L6 : List (View.Piece (Elt F) S1x4x577x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.Kernel.Body

end
-- ==== Proof.BitsFrame.lean ====
/-
  The frame of the kernel as printed (the same body at the word-level instance), stated as for the idealized kernel. After each grid point the output
  block is the stores of that point read back (four slabs, one per head, tiling the block), and the scratch holds the
  batch's penalty matrix: computed at the first head block of the batch, carried unchanged through the other two.
  With that as the pipeline's proof data — inputs left in place, the scratch tracked point by point — the body's two
  cases give the body obligation at every point, and the launch theorem gives the run.
-/
import proofs.«156862_j47253230191316_2_alg».proof.Proof.BitsBodyLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first head block the four stored slabs tile the output block. -/
theorem cover0_A_6 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (y : S1x4x577x64.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S1x1x577x64.size (by sl_kernel_rfl) y

/-- What a first head block leaves in the output block: its pieces read back. -/
def out0_A_6 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) : Vec F S1x4x577x64 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

/-- At a first head block the one whole store covers the scratch. -/
theorem scover0_A_0 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (y : S577x577.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).2.1 S577x577.size (by sl_kernel_rfl) y

/-- What a first head block leaves in the scratch: its piece read back. -/
def sout0_A_0 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) : Vec F S577x577 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4 x5).2.1)

/-- At a later head block the four stored slabs tile the output block. -/
theorem cover0_B_6 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : ¬cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (xs0 : Vec F S577x577 .f32) (y : S1x4x577x64.Idx) :
    ∃ pc ∈ (kernelRun0_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).1 S1x1x577x64.size (by sl_kernel_rfl) y

/-- What a later head block leaves in the output block: its pieces read back. -/
def out0_B_6 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : ¬cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (xs0 : Vec F S577x577 .f32) : Vec F S1x4x577x64 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xs0).1)

/-! ## What the output block and the scratch hold after each point -/

/-- After position `n`: the output block, and the scratch. At a first head block both are that case's stores; at a
    later one the output block is that case's stores over the scratch the point before left, which stays. -/
def outsAt0 (c : Dev nD) : (n : ℕ) → n < cfg0.N → Vec F S1x4x577x64 .f32 × Vec F S577x577 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 3 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, (outsAt0 c n (Nat.lt_of_succ_lt hn)).2)

/-- `outsAt0` at a first head block. -/
theorem outsAt0_A (c : Dev nD) (t : Fin cfg0.N) (h0 : t.val % 3 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a later head block: over what the point before left. -/
theorem outsAt0_B (c : Dev nD) (t : Fin cfg0.N) (h0 : ¬t.val % 3 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the scratch holds anything; afterwards what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt0 w t]

set_option maxHeartbeats 4800000 in
/-- The body at any point: the inputs' memrefs hold their blocks; the point is a first head block or a later one; the
    invariant hands the body the scratch at what the point before left (at anything at the first point) and takes it back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from leaves_eq m c 0 t,
    show (dats m 0 c).leavesExact 1 t = owns (c : Thread nD τ) (ms0_1 t) fullShare ((dats m 0 c).after 1 t) from leaves_eq m c 1 t,
    show (dats m 0 c).leavesExact 2 t = owns (c : Thread nD τ) (ms0_2 t) fullShare ((dats m 0 c).after 2 t) from leaves_eq m c 2 t,
    show (dats m 0 c).leavesExact 3 t = owns (c : Thread nD τ) (ms0_3 t) fullShare ((dats m 0 c).after 3 t) from leaves_eq m c 3 t,
    show (dats m 0 c).leavesExact 4 t = owns (c : Thread nD τ) (ms0_4 t) fullShare ((dats m 0 c).after 4 t) from leaves_eq m c 4 t,
    show (dats m 0 c).leavesExact 5 t = owns (c : Thread nD τ) (ms0_5 t) fullShare ((dats m 0 c).after 5 t) from leaves_eq m c 5 t,
    show (dats m 0 c).leavesExact 6 t = owns (c : Thread nD τ) (ms0_6 t) fullShare ((dats m 0 c).after 6 t) from leaves_eq m c 6 t,
    after0_0, after0_1, after0_2, after0_3, after0_4, after0_5, after0_6]
  have hN : t.val < 48 := lt_of_lt_of_eq t.isLt (show cfg0.N = 48 from N_0)
  by_cases h0 : t.val % 3 = 0
  · rw [outsAt0_A m c t h0]
    unfold out0_A_6 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · rw [outsAt0_B m c t h0]
    unfold out0_B_6; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 48 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IdealBodyShared.lean ====
/-
  What the two cases of the kernel body are stated over. The grid is 16 batches × 3 blocks of four heads, the head block
  the fast axis; the body branches once, on "this is the first head block of its batch" (points 0, 3, …, 45), where it
  computes the penalty matrix into its scratch; at the other points it reads the scratch as the point before left it.
  Here: that condition decided over the grid, every window live at every point, the staging and scratch memrefs by
  name, and the region invariant with the scratch held at some contents.
-/
import proofs.«156862_j47253230191316_2_alg».proof.Proof.Gen.KernelIdeal.Frame
import proofs.«156862_j47253230191316_2_alg».proof.Proof.Gen.KernelIdeal.Skeleton
import proofs.«156862_j47253230191316_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition from the grid coordinates: the head-block coordinate is zero. -/
abbrev cond0_0 (i : grid0.Coords) : Prop := (Scalar.cmpi .ne (Scalar.extui (Scalar.cmpi .eq (BitVec.ofNat 32 (i 1).val) 0#32)) 0#32) = 1#1

/-- It holds exactly at the points divisible by three: decided over the 48 points. -/
theorem hcond0_0 : ∀ t : Fin cfg0.N, cond0_0 (grid0.coords t) ↔ t.val % 3 = 0 :=
  (by decide +kernel : ∀ t : Fin grid0.N, cond0_0 (grid0.coords t) ↔ t.val % 3 = 0)

/-- No window is ever idle. -/
theorem liveAt0 : ∀ (w : Fin 7) (t : Fin cfg0.N), cfg0.idle w (grid0.coords t) = false := by decide +kernel

/-- Each window's current staging memref at point `t`, and its wholeness. -/
abbrev ms0_0 (t : Fin cfg0.N) : Memref sig .tc .vmem S1x4x577x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x577x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x577x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x577x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x577x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x577x577 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x577x64 .f32 := win0_6.stage (cfg0.slots t 6)
abbrev hs0_6 (t : Fin cfg0.N) : (ms0_6 t).IsWhole := hstage0_6 ((cfg0.slots t 6).cast nbuf0_6)

/-- The scratch: a whole buffer of the kernel's own, passed beside the windows. -/
abbrev scM0_0 : Memref sig .tc .vmem S577x577 .f32 := Memref.whole cc0_scratch0
/-- The scratch as a view: what it holds is stated through it. -/
abbrev VS0_0 : View sig .tc .vmem S577x577 .f32 := scM0_0.view
/-- One staging buffer of the output window, through which its contents are stated. -/
abbrev VO0_6 : View sig .tc .vmem S1x4x577x64 .f32 := (Memref.whole cc0_stg6_0 : Memref sig .tc .vmem S1x4x577x64 .f32).view

/-- The region invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.IdealBodyFirst.lean ====
/-
  The body at the first head block of a batch, run once on whole staging memrefs: it computes the penalty matrix from the
  position and embedding blocks, stores it whole into the scratch, reads it back, and then, head by head over the four
  heads of the block, stores each head's attention output into that head's slab of the output block. What the scratch
  and the output block end with are lists of stored pieces (last first): the witnesses the run itself finds.
-/
import proofs.«156862_j47253230191316_2_alg».proof.Proof.IdealBodyShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`L6`) and in the scratch (`LS0`) at a point where the head-block
    coordinate is zero, with the proof that from the inputs at their contents, the output block and the scratch at
    anything, the body runs to the continuation holding the inputs as they were and those pieces written. -/
noncomputable def kernelRun0_A (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) :
    Σ' (L6 : List (View.Piece (Elt F) S1x4x577x64 .f32)), { LS0 : List (View.Piece (Elt F) S577x577 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Body

end
-- ==== Proof.IdealBodyLater.lean ====
/-
  The body at a later head block of a batch, run once on whole staging memrefs: the branch is not taken, the scratch is
  read as the point before left it (the batch's penalty matrix) and handed back untouched, and head by head each
  head's attention output is stored into that head's slab of the output block.
-/
import proofs.«156862_j47253230191316_2_alg».proof.Proof.IdealBodyFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`L6`) at a point where the head-block coordinate is not zero, with
    the proof that from the inputs at their contents, the scratch at `xs0` and the output block at anything, the body
    runs to the continuation holding the inputs and the scratch as they were and those pieces written. -/
noncomputable def kernelRun0_B (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : ¬cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (xs0 : Vec F S577x577 .f32) :
    { L6 : List (View.Piece (Elt F) S1x4x577x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.KernelIdeal.Body

end
-- ==== Proof.IdealFrame.lean ====
/-
  The frame of the idealized kernel and what its output array holds block by block. After each grid point the output
  block is the stores of that point read back (four slabs, one per head, tiling the block), and the scratch holds the
  batch's penalty matrix: computed at the first head block of the batch, carried unchanged through the other two.
  With that as the pipeline's proof data — inputs left in place, the scratch tracked point by point — the body's two
  cases give the body obligation at every point, and the launch theorem gives the run.
-/
import proofs.«156862_j47253230191316_2_alg».proof.Proof.IdealBodyLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first head block the four stored slabs tile the output block. -/
theorem cover0_A_6 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (y : S1x4x577x64.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S1x1x577x64.size (by sl_kernel_rfl) y

/-- What a first head block leaves in the output block: its pieces read back. -/
def out0_A_6 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) : Vec F S1x4x577x64 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

/-- At a first head block the one whole store covers the scratch. -/
theorem scover0_A_0 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (y : S577x577.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).2.1 S577x577.size (by sl_kernel_rfl) y

/-- What a first head block leaves in the scratch: its piece read back. -/
def sout0_A_0 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) : Vec F S577x577 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4 x5).2.1)

/-- At a later head block the four stored slabs tile the output block. -/
theorem cover0_B_6 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : ¬cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (xs0 : Vec F S577x577 .f32) (y : S1x4x577x64.Idx) :
    ∃ pc ∈ (kernelRun0_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).1 S1x1x577x64.size (by sl_kernel_rfl) y

/-- What a later head block leaves in the output block: its pieces read back. -/
def out0_B_6 (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : ¬cond0_0 i)
    (x0 : Vec F S1x4x577x64 .f32) (x1 : Vec F S1x4x577x64 .f32) (x2 : Vec F S1x4x577x64 .f32) (x3 : Vec F S1x577x2 .f32) (x4 : Vec F S1x577x768 .f32) (x5 : Vec F S1x577x577 .i32) (xs0 : Vec F S577x577 .f32) : Vec F S1x4x577x64 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xs0).1)

/-! ## What the output block and the scratch hold after each point -/

/-- After position `n`: the output block, and the scratch. At a first head block both are that case's stores; at a
    later one the output block is that case's stores over the scratch the point before left, which stays. -/
def outsAt0 (c : Dev nD) : (n : ℕ) → n < cfg0.N → Vec F S1x4x577x64 .f32 × Vec F S577x577 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 3 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, (outsAt0 c n (Nat.lt_of_succ_lt hn)).2)

/-- `outsAt0` at a first head block. -/
theorem outsAt0_A (c : Dev nD) (t : Fin cfg0.N) (h0 : t.val % 3 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a later head block: over what the point before left. -/
theorem outsAt0_B (c : Dev nD) (t : Fin cfg0.N) (h0 : ¬t.val % 3 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the scratch holds anything; afterwards what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt0 w t]

set_option maxHeartbeats 4800000 in
/-- The body at any point: the inputs' memrefs hold their blocks; the point is a first head block or a later one; the
    invariant hands the body the scratch at what the point before left (at anything at the first point) and takes it back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from leaves_eq m c 0 t,
    show (dats m 0 c).leavesExact 1 t = owns (c : Thread nD τ) (ms0_1 t) fullShare ((dats m 0 c).after 1 t) from leaves_eq m c 1 t,
    show (dats m 0 c).leavesExact 2 t = owns (c : Thread nD τ) (ms0_2 t) fullShare ((dats m 0 c).after 2 t) from leaves_eq m c 2 t,
    show (dats m 0 c).leavesExact 3 t = owns (c : Thread nD τ) (ms0_3 t) fullShare ((dats m 0 c).after 3 t) from leaves_eq m c 3 t,
    show (dats m 0 c).leavesExact 4 t = owns (c : Thread nD τ) (ms0_4 t) fullShare ((dats m 0 c).after 4 t) from leaves_eq m c 4 t,
    show (dats m 0 c).leavesExact 5 t = owns (c : Thread nD τ) (ms0_5 t) fullShare ((dats m 0 c).after 5 t) from leaves_eq m c 5 t,
    show (dats m 0 c).leavesExact 6 t = owns (c : Thread nD τ) (ms0_6 t) fullShare ((dats m 0 c).after 6 t) from leaves_eq m c 6 t,
    after0_0, after0_1, after0_2, after0_3, after0_4, after0_5, after0_6]
  have hN : t.val < 48 := lt_of_lt_of_eq t.isLt (show cfg0.N = 48 from N_0)
  by_cases h0 : t.val % 3 = 0
  · rw [outsAt0_A m c t h0]
    unfold out0_A_6 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · rw [outsAt0_B m c t h0]
    unfold out0_B_6; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 48 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.IdealPieces.lean ====
/-
  The stores of the head loop, opened. Trip k of the loop over the four heads of a block makes one store: into slab k of the
  output block (offsets (0, k, 0, 0), extents (1, 1, 577, 64)) the attention output of head k, a function of the penalty
  matrix, the mask block and slab k of the query, key and value blocks. So every piece the loop leaves is such a slab store
  for some k. At a first head block the penalty matrix read back from the scratch is the one just stored there.
-/
import proofs.«156862_j47253230191316_2_alg».proof.Proof.IdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Trip k's one piece. -/
theorem tripL_eq (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (v3 : Vec F S577x577 .f32) (v4 : Vec F S1x577x577 .i32) (X2 : BufTy.Contents (Elt F) arg2.view.ty) (X3 : BufTy.Contents (Elt F) arg3.view.ty) (X4 : BufTy.Contents (Elt F) arg4.view.ty) (k : Fin k0_t1_loop.trips) :
    tripL_k0_t1 (F := F) Variants.none c none i arg2 harg2 arg3 harg3 arg4 harg4 arg5 harg5 arg6 harg6 arg7 harg7 arg8 harg8 arg9 harg9 v3 v4 X2 X3 X4 k = [(⟨Rect.unit (s := S1x4x577x64) (k0_off1 k) S1x1x577x64.size (k0_off1_inb k), k0_pay2 v3 v4 (View.readAt (Elt F) arg2.view (Rect.unit (s := S1x4x577x64) (k0_off1 k) S1x1x577x64.size (k0_off1_inb k)).toLoadRect X2) (View.readAt (Elt F) arg3.view (Rect.unit (s := S1x4x577x64) (k0_off1 k) S1x1x577x64.size (k0_off1_inb k)).toLoadRect X3) (View.readAt (Elt F) arg4.view (Rect.unit (s := S1x4x577x64) (k0_off1 k) S1x1x577x64.size (k0_off1_inb k)).toLoadRect X4)⟩ : View.Piece (Elt F) S1x4x577x64 .f32)] := by
  unfold tripL_k0_t1 trip_k0_t1; rfl

/-- Every piece of the trips before `n` is some trip's slab store. -/
theorem pb_mem (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (v3 : Vec F S577x577 .f32) (v4 : Vec F S1x577x577 .i32) (X2 : BufTy.Contents (Elt F) arg2.view.ty) (X3 : BufTy.Contents (Elt F) arg3.view.ty) (X4 : BufTy.Contents (Elt F) arg4.view.ty) :
    ∀ (n : ℕ) (p : View.Piece (Elt F) S1x4x577x64 .f32), p ∈ pb_k0_t1 (F := F) Variants.none c none i arg2 harg2 arg3 harg3 arg4 harg4 arg5 harg5 arg6 harg6 arg7 harg7 arg8 harg8 arg9 harg9 v3 v4 X2 X3 X4 n →
      ∃ k : Fin k0_t1_loop.trips, p = (⟨Rect.unit (s := S1x4x577x64) (k0_off1 k) S1x1x577x64.size (k0_off1_inb k), k0_pay2 v3 v4 (View.readAt (Elt F) arg2.view (Rect.unit (s := S1x4x577x64) (k0_off1 k) S1x1x577x64.size (k0_off1_inb k)).toLoadRect X2) (View.readAt (Elt F) arg3.view (Rect.unit (s := S1x4x577x64) (k0_off1 k) S1x1x577x64.size (k0_off1_inb k)).toLoadRect X3) (View.readAt (Elt F) arg4.view (Rect.unit (s := S1x4x577x64) (k0_off1 k) S1x1x577x64.size (k0_off1_inb k)).toLoadRect X4)⟩ : View.Piece (Elt F) S1x4x577x64 .f32)
  | 0, p, h => by rw [pb_k0_t1] at h; exact absurd h List.not_mem_nil
  | n + 1, p, h => by
    rw [pb_k0_t1] at h
    unfold pb_k0_t1Step at h
    split at h
    · rename_i hk
      rcases List.mem_append.mp h with h1 | h2
      · rw [tripL_eq] at h1
        exact ⟨⟨n, hk⟩, List.mem_singleton.mp h1⟩
      · exact pb_mem c i arg2 harg2 arg3 harg3 arg4 harg4 arg5 harg5 arg6 harg6 arg7 harg7 arg8 harg8 arg9 harg9 v3 v4 X2 X3 X4 n p h2
    · exact pb_mem c i arg2 harg2 arg3 harg3 arg4 harg4 arg5 harg5 arg6 harg6 arg7 harg7 arg8 harg8 arg9 harg9 v3 v4 X2 X3 X4 n p h

/-- A load through the whole-buffer rectangle of a whole memref reads its contents. -/
theorem readAt_whole2 (arg : Memref sig .tc .vmem S577x577 .f32) (h : arg.IsWhole) (x : Vec F S577x577 .f32) :
    View.readAt (Elt F) arg.view (Rect.unit (s := S577x577) ![0, 0] S577x577.size inb_S577x577_S577x577_0_0).toLoadRect (h.unread x) = x := by
  rw [View.readAt_eq_ld, h.read_unread]
  exact View.ld_unit_zero (funext fun a => by match a with | ⟨0, _⟩ => rfl | ⟨1, _⟩ => rfl) _ x

theorem readAt_whole_pos (arg : Memref sig .tc .vmem S1x577x2 .f32) (h : arg.IsWhole) (x : Vec F S1x577x2 .f32) :
    View.readAt (Elt F) arg.view (Rect.unit (s := S1x577x2) ![0, 0, 0] S1x577x2.size inb_S1x577x2_S1x577x2_0_0_0).toLoadRect (h.unread x) = x := by
  rw [View.readAt_eq_ld, h.read_unread]
  exact View.ld_unit_zero (funext fun a => by match a with | ⟨0, _⟩ => rfl | ⟨1, _⟩ => rfl | ⟨2, _⟩ => rfl) _ x

theorem readAt_whole_emb (arg : Memref sig .tc .vmem S1x577x768 .f32) (h : arg.IsWhole) (x : Vec F S1x577x768 .f32) :
    View.readAt (Elt F) arg.view (Rect.unit (s := S1x577x768) ![0, 0, 0] S1x577x768.size inb_S1x577x768_S1x577x768_0_0_0).toLoadRect (h.unread x) = x := by
  rw [View.readAt_eq_ld, h.read_unread]
  exact View.ld_unit_zero (funext fun a => by match a with | ⟨0, _⟩ => rfl | ⟨1, _⟩ => rfl | ⟨2, _⟩ => rfl) _ x

theorem readAt_whole_mask (arg : Memref sig .tc .vmem S1x577x577 .i32) (h : arg.IsWhole) (x : Vec F S1x577x577 .i32) :
    View.readAt (Elt F) arg.view (Rect.unit (s := S1x577x577) ![0, 0, 0] S1x577x577.size inb_S1x577x577_S1x577x577_0_0_0).toLoadRect (h.unread x) = x := by
  rw [View.readAt_eq_ld, h.read_unread]
  exact View.ld_unit_zero (funext fun a => by match a with | ⟨0, _⟩ => rfl | ⟨1, _⟩ => rfl | ⟨2, _⟩ => rfl) _ x

end Cert.KernelIdeal.Body

end
-- ==== Proof.Spec.lean ====
/-
  The function both programs compute, over the extended reals, coordinate by coordinate.

  Per batch b and head h, with N = 577 tokens (token 0 the class token), head width 64 and embedding width 768:

    score(n, m)   = Σ_d (q(n, d) · 1/8) · k(m, d)
    penalty(n, m) = (1 · (√((x_n − x_m)² + (y_n − y_m)² + ε₁₂) · 1)) · (1 − Σ_j u(n, j) · u(m, j))  for n, m ≥ 1, and 0 on the class row and column,
                    with u(n, j) = e(n, j) / (√(Σ_i e(n, i)²) + ε₈) the embedding rows scaled to unit length and
                    (x_n, y_n) the position of patch n − 1 (the class token has none: its row of positions is zero and never read under n, m ≥ 1);
    logit(n, m)   = score(n, m) − penalty(n, m) where the mask is set, −10⁹ where it is not;
    out(n, d)     = Σ_m softmax_m(logit(n, ·))(m) · v(m, d),  softmax by the row maximum (from −∞), exp, the row sum, the quotient.

  Float literals stay as their f32 words (the same word on both sides is never evaluated).
-/
import Idealize.ShloMosaic.PureOps.Ideal
import Idealize.ShloMosaic.Lib.ValueIdx

noncomputable section

namespace Cert.Attn

open Idealize.ShloMosaic Idealize.ShloMosaic.ValueIdx

def eps12 : EReal := Ideal.ofBits .f32 0x2B8CBCCC#32
def eps8 : EReal := Ideal.ofBits .f32 0x322BCC77#32
def oneF : EReal := Ideal.ofBits .f32 0x3F800000#32
def eighth : EReal := Ideal.ofBits .f32 0x3E000000#32
def negBig : EReal := Ideal.ofBits .f32 0xCE6E6B28#32
def negInf : EReal := Ideal.ofBits .f32 0xFF800000#32

/-- Row n of the embeddings divided by its length plus ε₈. -/
def unitRow (e : Fin 577 → Fin 768 → EReal) (n : Fin 577) (j : Fin 768) : EReal :=
  Ideal.div (e n j) (Ideal.sqrt (∑ i : Fin 768, e n i * e n i) + eps8)

/-- The cosine similarity of rows n and m. -/
def cosSim (e : Fin 577 → Fin 768 → EReal) (n m : Fin 577) : EReal :=
  ∑ j : Fin 768, unitRow e n j * unitRow e m j

/-- The distance of the positions of tokens n and m (times the scale 1). -/
def dist (px py : Fin 577 → EReal) (n m : Fin 577) : EReal :=
  Ideal.sqrt ((px n - px m) * (px n - px m) + (py n - py m) * (py n - py m) + eps12) * oneF

/-- The penalty before the class row and column are cleared. -/
def rawPenalty (px py : Fin 577 → EReal) (e : Fin 577 → Fin 768 → EReal) (n m : Fin 577) : EReal :=
  (oneF * dist px py n m) * (oneF - cosSim e n m)

/-- The penalty: zero on the class row and column. -/
def penalty (px py : Fin 577 → EReal) (e : Fin 577 → Fin 768 → EReal) (n m : Fin 577) : EReal :=
  if 0 < n.val ∧ 0 < m.val then rawPenalty px py e n m else 0

/-- The scaled product of query row n and key row m. -/
def score (q k : Fin 577 → Fin 64 → EReal) (n m : Fin 577) : EReal :=
  ∑ d : Fin 64, (q n d * eighth) * k m d

/-- The logit: the score less the penalty where the mask is set, the finite stand-in elsewhere. -/
def logit (mk : Fin 577 → Fin 577 → BitVec 1) (q k : Fin 577 → Fin 64 → EReal) (pen : Fin 577 → Fin 577 → EReal)
    (n m : Fin 577) : EReal :=
  Scalar.select (mk n m) (score q k n m - pen n m) negBig

/-- The maximum of row n, from −∞. -/
def rowMax (f : Fin 577 → Fin 577 → EReal) (n : Fin 577) : EReal :=
  (Finset.univ : Finset (Fin 577)).fold max negInf (fun m => f n m)

/-- exp of the entry less its row's maximum. -/
def weight (f : Fin 577 → Fin 577 → EReal) (n m : Fin 577) : EReal :=
  Ideal.exp (f n m - rowMax f n)

/-- The softmax of row n at m. -/
def attn (f : Fin 577 → Fin 577 → EReal) (n m : Fin 577) : EReal :=
  Ideal.div (weight f n m) (∑ j : Fin 577, weight f n j)

/-- One head's output at (n, d). -/
def head (f : Fin 577 → Fin 577 → EReal) (v : Fin 577 → Fin 64 → EReal) (n : Fin 577) (d : Fin 64) : EReal :=
  ∑ m : Fin 577, attn f n m * v m d

/-- Coordinate j of the position of token n in batch b: patch n − 1's, and zero for the class token. -/
def pos (P : (⟨3, ![16, 576, 2]⟩ : Shape).Idx → EReal) (b : Fin 16) (j : Fin 2) (n : Fin 577) : EReal :=
  if h : 0 < n.val then P (ix3 b ⟨n.val - 1, by have := n.isLt; omega⟩ j) else 0

/-- The whole result as one function of the six argument arrays. -/
def G (Q K V : (⟨4, ![16, 12, 577, 64]⟩ : Shape).Idx → EReal) (M : (⟨4, ![16, 1, 577, 577]⟩ : Shape).Idx → BitVec 1)
    (P : (⟨3, ![16, 576, 2]⟩ : Shape).Idx → EReal) (E : (⟨3, ![16, 577, 768]⟩ : Shape).Idx → EReal) :
    (⟨4, ![16, 12, 577, 64]⟩ : Shape).Idx → EReal := fun i =>
  head (logit (fun n m => M (ix4 (i 0) 0 n m)) (fun n d => Q (ix4 (i 0) (i 1) n d)) (fun m d => K (ix4 (i 0) (i 1) m d))
      (penalty (pos P (i 0) 0) (pos P (i 0) 1) (fun n j => E (ix3 (i 0) n j))))
    (fun m d => V (ix4 (i 0) (i 1) m d)) (i 2) (i 3)

end Cert.Attn

end
-- ==== Proof.LibCoords.lean ====
/-
  Indices given by coordinates, continued: the column forms of the layout operations (a vector stood up as a column, a
  column spread over many columns), two leading unit axes dropped or added, the index a one-axis reduction of a matrix
  along its rows inserts, and the signed test "a small natural number, as a 32-bit word, is above zero".
-/
import Idealize.ShloMosaic.Lib.ValueLayout
import Idealize.ShloMosaic.PureOps.Ideal.Laws

namespace Cert.LibCoords

open Idealize.ShloMosaic Idealize.ShloMosaic.ValueIdx

variable {α : Type}

/-! ## A vector as a column, and a column spread over the columns -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Two leading unit axes dropped or added -/

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

/-! ## The index a reduction along the rows inserts -/

/-- Reducing a matrix `[a, b]` along axis 1 into `[a]`: the source index over `n` with coordinate `k` on the
    dropped axis is `(n, k)`. -/
theorem lift_axis1_ix1 {a b : ℕ} (h : (⟨2, ![a, b]⟩ : Shape).Reduces [(1 : Fin 2)] ⟨1, ![a]⟩) (n : Fin a) (k : Fin b) :
    h.lift (ix1 n) k = ix2 n k := by
  funext c
  refine Fin.ext ?_
  match c with
  | ⟨0, _⟩ => rfl
  | ⟨1, _⟩ => rfl

/-! ## A small natural number, as a 32-bit word, against zero -/

/-- For `k` below `2 ^ 31` the signed comparison "the word of `k` is above the zero word" says `0 < k`. -/
theorem cmpi_sgt_ofNat_zero_eq_one (k : ℕ) (hk : k < 2 ^ 31) :
    IntOp.cmpi .sgt (BitVec.ofNat 32 k) 0#32 = 1#1 ↔ 0 < k := by
  unfold IntOp.cmpi
  have hs : (0#32).slt (BitVec.ofNat 32 k) = decide (0 < k) := by
    have hn : (BitVec.ofNat 32 k).toNat = k := by
      rw [BitVec.toNat_ofNat]; exact Nat.mod_eq_of_lt (by omega)
    have h1 : (BitVec.ofNat 32 k).toInt = (k : ℤ) := by
      rw [BitVec.toInt_eq_toNat_of_lt (by rw [hn]; omega), hn]
    rw [BitVec.slt_eq_decide, h1]
    simp
  show BitVec.ofBool ((0#32).slt (BitVec.ofNat 32 k)) = 1#1 ↔ 0 < k
  rw [hs]
  by_cases h : 0 < k <;> simp [h]

end Cert.LibCoords
-- ==== Proof.PayloadValue.lean ====
/-
  The kernel's arithmetic read index by index at the extended reals.

  The body computes, once per batch, the penalty matrix

    P(n, m) = (1 · (√((x_n − x_m)² + (y_n − y_m)² + ε₁₂) · 1)) · (1 − Σ_j u(n, j) · u(m, j))   for n, m ≥ 1,   0 otherwise,

  with u(n, j) = e(n, j) / (√(Σ_i e(n, i)²) + ε₈), from the block of positions and the block of embeddings, and then,
  for one head, from the penalty, the mask words and the rows q, k, v of the head,

    out(n, d) = Σ_m softmax_m(ℓ(n, ·))(m) · v(m, d),   ℓ(n, m) = Σ_d (q(n, d) · 1/8) · k(m, d) − P(n, m) where the mask word is not 0, −10⁹ elsewhere,

  the softmax taken by the row maximum (from −∞), exp, the row sum and the quotient. Each payload of the body is first
  restated as a composition of a few named stages (by unfolding: `k0_pay3_eq`, `k0_pay2_eq`), each stage is read at an
  index over a VARIABLE operand (one contraction, one row reduction, or a chain of layout operations at a time), and the
  readings are chained into the specification's functions (`penalty_apply`, `head_apply`). No law of the extended reals
  beyond reindexing a sum is used: the two sides are the same expression.
-/
import proofs.«156862_j47253230191316_2_alg».proof.Proof.Gen.KernelIdeal.Skeleton
import proofs.«156862_j47253230191316_2_alg».proof.Proof.Spec
import proofs.«156862_j47253230191316_2_alg».proof.Proof.LibCoords
import Idealize.ShloMosaic.Lib.ValueLayout
import Idealize.ShloMosaic.PureOps.Ideal.Laws

noncomputable section

namespace Cert.KernelIdeal.PayloadValue

open Idealize.ShloMosaic Idealize.ShloMosaic.ValueIdx Cert.KernelIdeal.Gen Cert.LibCoords

/-! ## The three contractions, each into the zero accumulator -/

theorem lhs768_0 (i : S577x577.Idx) (q : dot_S577x768_S577x768_S577x577_1_1_0_0_n_n.contr.Idx) : (dot_S577x768_S577x768_S577x577_1_1_0_0_n_n.lhsIdx i q 0).val = (i 0).val := by
  unfold DotDims.lhsIdx
  rw [dif_neg (show ¬(0 : Fin S577x768.rank) ∈ dot_S577x768_S577x768_S577x577_1_1_0_0_n_n.lhsBatch by decide),
    dif_pos (show (0 : Fin S577x768.rank) ∈ dot_S577x768_S577x768_S577x577_1_1_0_0_n_n.lhsNonContracting by decide)]
  rfl
theorem lhs768_1 (i : S577x577.Idx) (q : dot_S577x768_S577x768_S577x577_1_1_0_0_n_n.contr.Idx) : (dot_S577x768_S577x768_S577x577_1_1_0_0_n_n.lhsIdx i q 1).val = (q ⟨0, by decide⟩).val :=
  dot_S577x768_S577x768_S577x577_1_1_0_0_n_n.lhsIdx_val_of_single rfl i q
theorem rhs768_0 (i : S577x577.Idx) (q : dot_S577x768_S577x768_S577x577_1_1_0_0_n_n.contr.Idx) : (dot_S577x768_S577x768_S577x577_1_1_0_0_n_n.rhsIdx i q 0).val = (i 1).val := by
  unfold DotDims.rhsIdx
  rw [dif_neg (show ¬(0 : Fin S577x768.rank) ∈ dot_S577x768_S577x768_S577x577_1_1_0_0_n_n.rhsBatch by decide),
    dif_pos (show (0 : Fin S577x768.rank) ∈ dot_S577x768_S577x768_S577x577_1_1_0_0_n_n.rhsNonContracting by decide)]
  rfl
theorem rhs768_1 (i : S577x577.Idx) (q : dot_S577x768_S577x768_S577x577_1_1_0_0_n_n.contr.Idx) : (dot_S577x768_S577x768_S577x577_1_1_0_0_n_n.rhsIdx i q 1).val = (q ⟨0, by decide⟩).val :=
  dot_S577x768_S577x768_S577x577_1_1_0_0_n_n.rhsIdx_val_of_single rfl i q

theorem lhs64_0 (i : S577x577.Idx) (q : dot_S577x64_S577x64_S577x577_1_1_0_0_n_n.contr.Idx) : (dot_S577x64_S577x64_S577x577_1_1_0_0_n_n.lhsIdx i q 0).val = (i 0).val := by
  unfold DotDims.lhsIdx
  rw [dif_neg (show ¬(0 : Fin S577x64.rank) ∈ dot_S577x64_S577x64_S577x577_1_1_0_0_n_n.lhsBatch by decide),
    dif_pos (show (0 : Fin S577x64.rank) ∈ dot_S577x64_S577x64_S577x577_1_1_0_0_n_n.lhsNonContracting by decide)]
  rfl
theorem lhs64_1 (i : S577x577.Idx) (q : dot_S577x64_S577x64_S577x577_1_1_0_0_n_n.contr.Idx) : (dot_S577x64_S577x64_S577x577_1_1_0_0_n_n.lhsIdx i q 1).val = (q ⟨0, by decide⟩).val :=
  dot_S577x64_S577x64_S577x577_1_1_0_0_n_n.lhsIdx_val_of_single rfl i q
theorem rhs64_0 (i : S577x577.Idx) (q : dot_S577x64_S577x64_S577x577_1_1_0_0_n_n.contr.Idx) : (dot_S577x64_S577x64_S577x577_1_1_0_0_n_n.rhsIdx i q 0).val = (i 1).val := by
  unfold DotDims.rhsIdx
  rw [dif_neg (show ¬(0 : Fin S577x64.rank) ∈ dot_S577x64_S577x64_S577x577_1_1_0_0_n_n.rhsBatch by decide),
    dif_pos (show (0 : Fin S577x64.rank) ∈ dot_S577x64_S577x64_S577x577_1_1_0_0_n_n.rhsNonContracting by decide)]
  rfl
theorem rhs64_1 (i : S577x577.Idx) (q : dot_S577x64_S577x64_S577x577_1_1_0_0_n_n.contr.Idx) : (dot_S577x64_S577x64_S577x577_1_1_0_0_n_n.rhsIdx i q 1).val = (q ⟨0, by decide⟩).val :=
  dot_S577x64_S577x64_S577x577_1_1_0_0_n_n.rhsIdx_val_of_single rfl i q

theorem lhs577_0 (i : S577x64.Idx) (q : dot_S577x577_S577x64_S577x64_1_0_0_1_n_n.contr.Idx) : (dot_S577x577_S577x64_S577x64_1_0_0_1_n_n.lhsIdx i q 0).val = (i 0).val := by
  unfold DotDims.lhsIdx
  rw [dif_neg (show ¬(0 : Fin S577x577.rank) ∈ dot_S577x577_S577x64_S577x64_1_0_0_1_n_n.lhsBatch by decide),
    dif_pos (show (0 : Fin S577x577.rank) ∈ dot_S577x577_S577x64_S577x64_1_0_0_1_n_n.lhsNonContracting by decide)]
  rfl
theorem lhs577_1 (i : S577x64.Idx) (q : dot_S577x577_S577x64_S577x64_1_0_0_1_n_n.contr.Idx) : (dot_S577x577_S577x64_S577x64_1_0_0_1_n_n.lhsIdx i q 1).val = (q ⟨0, by decide⟩).val :=
  dot_S577x577_S577x64_S577x64_1_0_0_1_n_n.lhsIdx_val_of_single rfl i q
theorem rhs577_0 (i : S577x64.Idx) (q : dot_S577x577_S577x64_S577x64_1_0_0_1_n_n.contr.Idx) : (dot_S577x577_S577x64_S577x64_1_0_0_1_n_n.rhsIdx i q 0).val = (q ⟨0, by decide⟩).val :=
  dot_S577x577_S577x64_S577x64_1_0_0_1_n_n.rhsIdx_val_of_single rfl i q
theorem rhs577_1 (i : S577x64.Idx) (q : dot_S577x577_S577x64_S577x64_1_0_0_1_n_n.contr.Idx) : (dot_S577x577_S577x64_S577x64_1_0_0_1_n_n.rhsIdx i q 1).val = (i 1).val := by
  unfold DotDims.rhsIdx
  rw [dif_neg (show ¬(1 : Fin S577x64.rank) ∈ dot_S577x577_S577x64_S577x64_1_0_0_1_n_n.rhsBatch by decide),
    dif_pos (show (1 : Fin S577x64.rank) ∈ dot_S577x577_S577x64_S577x64_1_0_0_1_n_n.rhsNonContracting by decide)]
  rfl

/-- Rows against rows over 768 lanes: the entry `(n, m)` is `Σ_j l(n, j) · r(m, j)`. -/
theorem matmul768_apply (l : FVec Ideal S577x768 .bf16) (r : FVec Ideal S577x768 .bf16) (n m : Fin 577) :
    matmul dot_S577x768_S577x768_S577x577_1_1_0_0_n_n none l r (constant (F := Ideal) S577x577 .f32 0x00000000#32) (ix2 n m)
      = ∑ j : Fin 768, l (ix2 n j) * r (ix2 m j) := by
  refine (Ideal.matmul_constant_zero_apply dot_S577x768_S577x768_S577x577_1_1_0_0_n_n none l r (ix2 n m)).trans ?_
  rw [← Equiv.sum_comp (contrEquiv1 dot_S577x768_S577x768_S577x577_1_1_0_0_n_n 768 rfl rfl).symm]
  refine Finset.sum_congr rfl fun j _ => ?_
  have hk := contrEquiv1_symm_val dot_S577x768_S577x768_S577x577_1_1_0_0_n_n 768 rfl rfl j
  have el : dot_S577x768_S577x768_S577x577_1_1_0_0_n_n.lhsIdx (ix2 n m) ((contrEquiv1 dot_S577x768_S577x768_S577x577_1_1_0_0_n_n 768 rfl rfl).symm j) = ix2 n j := funext fun a => Fin.ext (by
    match a with
    | ⟨0, _⟩ => exact lhs768_0 _ _
    | ⟨1, _⟩ => exact (lhs768_1 _ _).trans hk)
  have er : dot_S577x768_S577x768_S577x577_1_1_0_0_n_n.rhsIdx (ix2 n m) ((contrEquiv1 dot_S577x768_S577x768_S577x577_1_1_0_0_n_n 768 rfl rfl).symm j) = ix2 m j := funext fun a => Fin.ext (by
    match a with
    | ⟨0, _⟩ => exact rhs768_0 _ _
    | ⟨1, _⟩ => exact (rhs768_1 _ _).trans hk)
  rw [el, er]

/-- Rows against rows over 64 lanes: the entry `(n, m)` is `Σ_d l(n, d) · r(m, d)`. -/
theorem matmul64_apply (l : FVec Ideal S577x64 .bf16) (r : FVec Ideal S577x64 .bf16) (n m : Fin 577) :
    matmul dot_S577x64_S577x64_S577x577_1_1_0_0_n_n none l r (constant (F := Ideal) S577x577 .f32 0x00000000#32) (ix2 n m)
      = ∑ d : Fin 64, l (ix2 n d) * r (ix2 m d) := by
  refine (Ideal.matmul_constant_zero_apply dot_S577x64_S577x64_S577x577_1_1_0_0_n_n none l r (ix2 n m)).trans ?_
  rw [← Equiv.sum_comp (contrEquiv1 dot_S577x64_S577x64_S577x577_1_1_0_0_n_n 64 rfl rfl).symm]
  refine Finset.sum_congr rfl fun d _ => ?_
  have hk := contrEquiv1_symm_val dot_S577x64_S577x64_S577x577_1_1_0_0_n_n 64 rfl rfl d
  have el : dot_S577x64_S577x64_S577x577_1_1_0_0_n_n.lhsIdx (ix2 n m) ((contrEquiv1 dot_S577x64_S577x64_S577x577_1_1_0_0_n_n 64 rfl rfl).symm d) = ix2 n d := funext fun a => Fin.ext (by
    match a with
    | ⟨0, _⟩ => exact lhs64_0 _ _
    | ⟨1, _⟩ => exact (lhs64_1 _ _).trans hk)
  have er : dot_S577x64_S577x64_S577x577_1_1_0_0_n_n.rhsIdx (ix2 n m) ((contrEquiv1 dot_S577x64_S577x64_S577x577_1_1_0_0_n_n 64 rfl rfl).symm d) = ix2 m d := funext fun a => Fin.ext (by
    match a with
    | ⟨0, _⟩ => exact rhs64_0 _ _
    | ⟨1, _⟩ => exact (rhs64_1 _ _).trans hk)
  rw [el, er]

/-- Rows against columns over the 577 tokens: the entry `(n, d)` is `Σ_m l(n, m) · r(m, d)`. -/
theorem matmul577_apply (l : FVec Ideal S577x577 .bf16) (r : FVec Ideal S577x64 .bf16) (n : Fin 577) (d : Fin 64) :
    matmul dot_S577x577_S577x64_S577x64_1_0_0_1_n_n none l r (constant (F := Ideal) S577x64 .f32 0x00000000#32) (ix2 n d)
      = ∑ m : Fin 577, l (ix2 n m) * r (ix2 m d) := by
  refine (Ideal.matmul_constant_zero_apply dot_S577x577_S577x64_S577x64_1_0_0_1_n_n none l r (ix2 n d)).trans ?_
  rw [← Equiv.sum_comp (contrEquiv1 dot_S577x577_S577x64_S577x64_1_0_0_1_n_n 577 rfl rfl).symm]
  refine Finset.sum_congr rfl fun m _ => ?_
  have hk := contrEquiv1_symm_val dot_S577x577_S577x64_S577x64_1_0_0_1_n_n 577 rfl rfl m
  have el : dot_S577x577_S577x64_S577x64_1_0_0_1_n_n.lhsIdx (ix2 n d) ((contrEquiv1 dot_S577x577_S577x64_S577x64_1_0_0_1_n_n 577 rfl rfl).symm m) = ix2 n m := funext fun a => Fin.ext (by
    match a with
    | ⟨0, _⟩ => exact lhs577_0 _ _
    | ⟨1, _⟩ => exact (lhs577_1 _ _).trans hk)
  have er : dot_S577x577_S577x64_S577x64_1_0_0_1_n_n.rhsIdx (ix2 n d) ((contrEquiv1 dot_S577x577_S577x64_S577x64_1_0_0_1_n_n 577 rfl rfl).symm m) = ix2 m d := funext fun a => Fin.ext (by
    match a with
    | ⟨0, _⟩ => exact (rhs577_0 _ _).trans hk
    | ⟨1, _⟩ => exact rhs577_1 _ _)
  rw [el, er]

/-! ## The row reductions -/

/-- The lane sum of a `577 × 768` matrix at row `n`. -/
theorem laneSum768_apply (src : FVec Ideal S577x768 .f32) (n : Fin 577) :
    multiReduction .add [1] S577 src 0x00000000#32 reduces_S577x768_S577 (.inl rfl) rfl (ix1 n) = ∑ j : Fin 768, src (ix2 n j) := by
  refine (Ideal.multiReduction_add_single src 0x00000000#32 reduces_S577x768_S577 (.inl rfl) rfl (ix1 n)).trans ?_
  exact Finset.sum_congr rfl fun k _ => congrArg src (lift_axis1_ix1 reduces_S577x768_S577 n k)

/-- The row sum of a `577 × 577` matrix at row `n`. -/
theorem rowSum577_apply (src : FVec Ideal S577x577 .f32) (n : Fin 577) :
    multiReduction .add [1] S577 src 0x00000000#32 reduces_S577x577_S577 (.inl rfl) rfl (ix1 n) = ∑ m : Fin 577, src (ix2 n m) := by
  refine (Ideal.multiReduction_add_single src 0x00000000#32 reduces_S577x577_S577 (.inl rfl) rfl (ix1 n)).trans ?_
  exact Finset.sum_congr rfl fun k _ => congrArg src (lift_axis1_ix1 reduces_S577x577_S577 n k)

/-- The row maximum of a `577 × 577` matrix at row `n`, from −∞. -/
theorem rowMax577_apply (src : FVec Ideal S577x577 .f32) (n : Fin 577) :
    multiReduction .maximumf [1] S577 src 0xFF800000#32 reduces_S577x577_S577 (.inl rfl) rfl (ix1 n)
      = Cert.Attn.rowMax (fun n m => src (ix2 n m)) n := by
  refine (Ideal.multiReduction_maximumf_single src 0xFF800000#32 reduces_S577x577_S577 (.inl rfl) rfl (ix1 n)).trans ?_
  unfold Cert.Attn.rowMax
  refine congrArg (fun f : Fin 577 → EReal => (Finset.univ : Finset (Fin 577)).fold max Cert.Attn.negInf f) ?_
  exact funext fun k => congrArg src (lift_axis1_ix1 reduces_S577x577_S577 n k)

/-! ## A row reduction stood up as a column and spread over the columns (keepdims) -/

/-- A per-row value, as a column spread over 577 columns, reads its row's value. -/
theorem column577_apply (r : FVec Ideal S577 .f32) (n m : Fin 577) :
    broadcastTo S577x577 (shapeCast S577x1 r shapeCasts_S577_S577x1) broadcasts_S577x1_S577x577 (ix2 n m) = r (ix1 n) :=
  (broadcastTo_a1_ab_apply _ broadcasts_S577x1_S577x577 n m).trans (shapeCast_a_a1_apply r shapeCasts_S577_S577x1 n 0)

/-! ## One head, stage by stage

The payload of a head is, by unfolding, the composition `outV (attnV (weightsV (logitsV …))) v` of the four stages
below (`k0_pay2_eq`); each is read at an index over its operands as variables. -/

/-- The scaled scores: `(q · 1/8) kᵀ`. -/
def scoreV (v9 v12 : Vec Ideal S1x1x577x64 .f32) : FVec Ideal S577x577 .f32 :=
  matmul dot_S577x64_S577x64_S577x577_1_1_0_0_n_n none
    (truncf .bf16 (mulf (shapeCast S577x64 v9 shapeCasts_S1x1x577x64_S577x64)
      (broadcast S577x64 (Scalar.ofBits (F := Ideal) .f32 0x3E000000#32))) bitsLt_bf16_f32)
    (truncf .bf16 (shapeCast S577x64 v12 shapeCasts_S1x1x577x64_S577x64) bitsLt_bf16_f32)
    (constant S577x577 .f32 0x00000000#32)

/-- The logits: the scores less the penalty where the mask word is not zero, the finite stand-in elsewhere. -/
def logitsV (v3 : Vec Ideal S577x577 .f32) (v4 : Vec Ideal S1x577x577 .i32) (v9 v12 : Vec Ideal S1x1x577x64 .f32) :
    FVec Ideal S577x577 .f32 :=
  select (cmpi .ne (shapeCast S577x577 v4 shapeCasts_S1x577x577_S577x577) (constantI S577x577 32 0#32))
    (subf (scoreV v9 v12) v3) (broadcast S577x577 (Scalar.ofBits (F := Ideal) .f32 0xCE6E6B28#32))

/-- exp of each entry less its row's maximum. -/
def weightsV (z : FVec Ideal S577x577 .f32) : FVec Ideal S577x577 .f32 :=
  exp (subf z (broadcastTo S577x577 (shapeCast S577x1
    (multiReduction .maximumf [1] S577 z 0xFF800000#32 reduces_S577x577_S577 (.inl rfl) rfl) shapeCasts_S577_S577x1)
    broadcasts_S577x1_S577x577))

/-- Each entry over its row's sum. -/
def attnV (w : FVec Ideal S577x577 .f32) : FVec Ideal S577x577 .f32 :=
  divf w (broadcastTo S577x577 (shapeCast S577x1
    (multiReduction .add [1] S577 w 0x00000000#32 reduces_S577x577_S577 (.inl rfl) rfl) shapeCasts_S577_S577x1)
    broadcasts_S577x1_S577x577)

/-- The weighted sum of the value rows, with the two unit axes put back. -/
def outV (p : FVec Ideal S577x577 .f32) (v15 : Vec Ideal S1x1x577x64 .f32) : FVec Ideal S1x1x577x64 .f32 :=
  shapeCast S1x1x577x64 (matmul dot_S577x577_S577x64_S577x64_1_0_0_1_n_n none (truncf .bf16 p bitsLt_bf16_f32)
    (truncf .bf16 (shapeCast S577x64 v15 shapeCasts_S1x1x577x64_S577x64) bitsLt_bf16_f32)
    (constant S577x64 .f32 0x00000000#32)) shapeCasts_S577x64_S1x1x577x64

/-- A head's payload is the four stages composed. -/
theorem k0_pay2_eq (v3 : Vec Ideal S577x577 .f32) (v4 : Vec Ideal S1x577x577 .i32) (v9 v12 v15 : Vec Ideal S1x1x577x64 .f32) :
    Gen.k0_pay2 (F := Ideal) v3 v4 v9 v12 v15 = outV (attnV (weightsV (logitsV v3 v4 v9 v12))) v15 := rfl

/-! ## The penalty, stage by stage -/

/-- The difference of coordinate `c` of the positions: entry `(n, m)` is coordinate `c` of row `n` less that of row `m`
    (a column of the positions spread over the columns, less a row of their transpose spread over the rows). -/
def dxV (p : FVec Ideal S577x2 .f32) : FVec Ideal S577x577 .f32 :=
  subf (broadcastTo S577x577 (extractStridedSlice S577x1 ![0, 0] p slices_S577x2_o0_0_S577x1) broadcasts_S577x1_S577x577)
    (broadcastTo S577x577 (extractStridedSlice S1x577 ![0, 0] (transpose S2x577 [1, 0] p transposes_S577x2_p1_0_S2x577)
      slices_S2x577_o0_0_S1x577) broadcasts_S1x577_S577x577)

def dyV (p : FVec Ideal S577x2 .f32) : FVec Ideal S577x577 .f32 :=
  subf (broadcastTo S577x577 (extractStridedSlice S577x1 ![0, 1] p slices_S577x2_o0_1_S577x1) broadcasts_S577x1_S577x577)
    (broadcastTo S577x577 (extractStridedSlice S1x577 ![1, 0] (transpose S2x577 [1, 0] p transposes_S577x2_p1_0_S2x577)
      slices_S2x577_o1_0_S1x577) broadcasts_S1x577_S577x577)

/-- The distances (times the scale 1) from the two coordinate differences. -/
def distV (dx dy : FVec Ideal S577x577 .f32) : FVec Ideal S577x577 .f32 :=
  mulf (sqrt (addf (addf (mulf dx dx) (mulf dy dy)) (broadcast S577x577 (Scalar.ofBits (F := Ideal) .f32 0x2B8CBCCC#32))))
    (broadcast S577x577 (Scalar.ofBits (F := Ideal) .f32 0x3F800000#32))

/-- The embedding rows scaled to unit length. -/
def unitV (e : FVec Ideal S577x768 .f32) : FVec Ideal S577x768 .f32 :=
  divf e (broadcastTo S577x768 (addf (sqrt (shapeCast S577x1
      (multiReduction .add [1] S577 (mulf e e) 0x00000000#32 reduces_S577x768_S577 (.inl rfl) rfl) shapeCasts_S577_S577x1))
    (broadcast S577x1 (Scalar.ofBits (F := Ideal) .f32 0x322BCC77#32))) broadcasts_S577x1_S577x768)

/-- The products of the unit rows with one another. -/
def cosV (u : FVec Ideal S577x768 .f32) : FVec Ideal S577x577 .f32 :=
  matmul dot_S577x768_S577x768_S577x577_1_1_0_0_n_n none (truncf .bf16 u bitsLt_bf16_f32) (truncf .bf16 u bitsLt_bf16_f32)
    (constant S577x577 .f32 0x00000000#32)

/-- The penalty before the class row and column are cleared. -/
def rawV (dist cos : FVec Ideal S577x577 .f32) : FVec Ideal S577x577 .f32 :=
  mulf (mulf (broadcast S577x577 (Scalar.ofBits (F := Ideal) .f32 0x3F800000#32)) dist)
    (subf (broadcast S577x577 (Scalar.ofBits (F := Ideal) .f32 0x3F800000#32)) cos)

/-- The raw penalty's payload is these stages composed. -/
theorem k0_pay3_eq (x3 : Vec Ideal S1x577x2 .f32) (x4 : Vec Ideal S1x577x768 .f32) :
    Gen.k0_pay3 (F := Ideal) x3 x4
      = rawV (distV (dxV (shapeCast S577x2 x3 shapeCasts_S1x577x2_S577x2)) (dyV (shapeCast S577x2 x3 shapeCasts_S1x577x2_S577x2)))
          (cosV (unitV (shapeCast S577x768 x4 shapeCasts_S1x577x768_S577x768))) := rfl

/-! ## The head's stages read at an index -/

theorem scoreV_apply (v9 v12 : Vec Ideal S1x1x577x64 .f32) (n m : Fin 577) :
    scoreV v9 v12 (ix2 n m) = Cert.Attn.score (fun n d => v9 (ix4 0 0 n d)) (fun m d => v12 (ix4 0 0 m d)) n m := by
  unfold scoreV Cert.Attn.score
  refine (matmul64_apply _ _ n m).trans ?_
  refine Finset.sum_congr rfl fun d _ => ?_
  show (shapeCast S577x64 v9 shapeCasts_S1x1x577x64_S577x64 (ix2 n d) * Ideal.ofBits .f32 0x3E000000#32)
      * shapeCast S577x64 v12 shapeCasts_S1x1x577x64_S577x64 (ix2 m d) = _
  rw [shapeCast_11ab_ab_apply v9 shapeCasts_S1x1x577x64_S577x64 n d, shapeCast_11ab_ab_apply v12 shapeCasts_S1x1x577x64_S577x64 m d]
  rfl

theorem logitsV_apply (v3 : Vec Ideal S577x577 .f32) (v4 : Vec Ideal S1x577x577 .i32) (v9 v12 : Vec Ideal S1x1x577x64 .f32)
    (n m : Fin 577) :
    logitsV v3 v4 v9 v12 (ix2 n m)
      = Cert.Attn.logit (fun n m => IntOp.cmpi .ne (v4 (ix3 0 n m)) 0#32) (fun n d => v9 (ix4 0 0 n d))
          (fun m d => v12 (ix4 0 0 m d)) (fun n m => v3 (ix2 n m)) n m := by
  unfold logitsV Cert.Attn.logit
  show Scalar.select (IntOp.cmpi .ne (shapeCast S577x577 v4 shapeCasts_S1x577x577_S577x577 (ix2 n m)) 0#32)
      (scoreV v9 v12 (ix2 n m) - v3 (ix2 n m)) (Ideal.ofBits .f32 0xCE6E6B28#32) = _
  rw [shapeCast_1ab_ab_apply v4 shapeCasts_S1x577x577_S577x577 n m, scoreV_apply]
  rfl

theorem weightsV_apply (z : FVec Ideal S577x577 .f32) (n m : Fin 577) :
    weightsV z (ix2 n m) = Cert.Attn.weight (fun n m => z (ix2 n m)) n m := by
  unfold weightsV Cert.Attn.weight
  show Ideal.exp (z (ix2 n m) - broadcastTo S577x577 (shapeCast S577x1
      (multiReduction .maximumf [1] S577 z 0xFF800000#32 reduces_S577x577_S577 (.inl rfl) rfl) shapeCasts_S577_S577x1)
      broadcasts_S577x1_S577x577 (ix2 n m)) = _
  rw [column577_apply, rowMax577_apply]

theorem attnV_apply (w : FVec Ideal S577x577 .f32) (n m : Fin 577) :
    attnV w (ix2 n m) = Ideal.div (w (ix2 n m)) (∑ j : Fin 577, w (ix2 n j)) := by
  unfold attnV
  show Ideal.div (w (ix2 n m)) (broadcastTo S577x577 (shapeCast S577x1
      (multiReduction .add [1] S577 w 0x00000000#32 reduces_S577x577_S577 (.inl rfl) rfl) shapeCasts_S577_S577x1)
      broadcasts_S577x1_S577x577 (ix2 n m)) = _
  rw [column577_apply, rowSum577_apply]

theorem outV_apply (p : FVec Ideal S577x577 .f32) (v15 : Vec Ideal S1x1x577x64 .f32) (n : Fin 577) (d : Fin 64) :
    outV p v15 (ix4 0 0 n d) = ∑ m : Fin 577, p (ix2 n m) * v15 (ix4 0 0 m d) := by
  unfold outV
  refine (shapeCast_ab_11ab_apply _ shapeCasts_S577x64_S1x1x577x64 0 0 n d).trans ?_
  refine (matmul577_apply _ _ n d).trans ?_
  refine Finset.sum_congr rfl fun m _ => ?_
  show p (ix2 n m) * shapeCast S577x64 v15 shapeCasts_S1x1x577x64_S577x64 (ix2 m d) = _
  rw [shapeCast_11ab_ab_apply v15 shapeCasts_S1x1x577x64_S577x64 m d]

/-- ONE HEAD: the payload stored for a head, at row `n` and lane `d`, is the specification's head of the logits built
    from the mask words, the query and key rows and the penalty, applied to the value rows. -/
theorem head_apply (v3 : Vec Ideal S577x577 .f32) (v4 : Vec Ideal S1x577x577 .i32) (v9 v12 v15 : Vec Ideal S1x1x577x64 .f32)
    (n : Fin 577) (d : Fin 64) :
    Gen.k0_pay2 (F := Ideal) v3 v4 v9 v12 v15 (ix4 0 0 n d)
      = Cert.Attn.head
          (Cert.Attn.logit (fun n m => IntOp.cmpi .ne (v4 (ix3 0 n m)) 0#32) (fun n d => v9 (ix4 0 0 n d))
            (fun m d => v12 (ix4 0 0 m d)) (fun n m => v3 (ix2 n m)))
          (fun m d => v15 (ix4 0 0 m d)) n d := by
  have hz : (fun n m => logitsV v3 v4 v9 v12 (ix2 n m))
      = Cert.Attn.logit (fun n m => IntOp.cmpi .ne (v4 (ix3 0 n m)) 0#32) (fun n d => v9 (ix4 0 0 n d))
          (fun m d => v12 (ix4 0 0 m d)) (fun n m => v3 (ix2 n m)) :=
    funext fun n => funext fun m => logitsV_apply v3 v4 v9 v12 n m
  rw [k0_pay2_eq, outV_apply, ← hz]
  unfold Cert.Attn.head Cert.Attn.attn
  refine Finset.sum_congr rfl fun m _ => ?_
  rw [attnV_apply]
  simp only [weightsV_apply]

/-! ## The penalty's stages read at an index -/

theorem dxV_apply (p : FVec Ideal S577x2 .f32) (n m : Fin 577) : dxV p (ix2 n m) = p (ix2 n 0) - p (ix2 m 0) := by
  unfold dxV
  show broadcastTo S577x577 (extractStridedSlice S577x1 ![0, 0] p slices_S577x2_o0_0_S577x1) broadcasts_S577x1_S577x577 (ix2 n m)
      - broadcastTo S577x577 (extractStridedSlice S1x577 ![0, 0] (transpose S2x577 [1, 0] p transposes_S577x2_p1_0_S2x577)
          slices_S2x577_o0_0_S1x577) broadcasts_S1x577_S577x577 (ix2 n m) = _
  rw [broadcastTo_a1_ab_apply _ broadcasts_S577x1_S577x577 n m, broadcastTo_1b_ab_apply _ broadcasts_S1x577_S577x577 n m,
    slice2_axis1_apply 0 p slices_S577x2_o0_0_S577x1 n (0 : Fin 1) (0 : Fin 2) rfl,
    slice2_axis0_apply 0 (transpose S2x577 [1, 0] p transposes_S577x2_p1_0_S2x577) slices_S2x577_o0_0_S1x577 (0 : Fin 1) m (0 : Fin 2) rfl,
    transpose_ix2_apply p transposes_S577x2_p1_0_S2x577 (0 : Fin 2) m]

theorem dyV_apply (p : FVec Ideal S577x2 .f32) (n m : Fin 577) : dyV p (ix2 n m) = p (ix2 n 1) - p (ix2 m 1) := by
  unfold dyV
  show broadcastTo S577x577 (extractStridedSlice S577x1 ![0, 1] p slices_S577x2_o0_1_S577x1) broadcasts_S577x1_S577x577 (ix2 n m)
      - broadcastTo S577x577 (extractStridedSlice S1x577 ![1, 0] (transpose S2x577 [1, 0] p transposes_S577x2_p1_0_S2x577)
          slices_S2x577_o1_0_S1x577) broadcasts_S1x577_S577x577 (ix2 n m) = _
  rw [broadcastTo_a1_ab_apply _ broadcasts_S577x1_S577x577 n m, broadcastTo_1b_ab_apply _ broadcasts_S1x577_S577x577 n m,
    slice2_axis1_apply 1 p slices_S577x2_o0_1_S577x1 n (0 : Fin 1) (1 : Fin 2) rfl,
    slice2_axis0_apply 1 (transpose S2x577 [1, 0] p transposes_S577x2_p1_0_S2x577) slices_S2x577_o1_0_S1x577 (0 : Fin 1) m (1 : Fin 2) rfl,
    transpose_ix2_apply p transposes_S577x2_p1_0_S2x577 (1 : Fin 2) m]

theorem distV_apply (dx dy : FVec Ideal S577x577 .f32) (i : S577x577.Idx) :
    distV dx dy i = Ideal.sqrt (dx i * dx i + dy i * dy i + Cert.Attn.eps12) * Cert.Attn.oneF := rfl

theorem unitV_apply (e : FVec Ideal S577x768 .f32) (n : Fin 577) (j : Fin 768) :
    unitV e (ix2 n j) = Cert.Attn.unitRow (fun n j => e (ix2 n j)) n j := by
  unfold unitV Cert.Attn.unitRow
  show Ideal.div (e (ix2 n j)) (broadcastTo S577x768 (addf (sqrt (shapeCast S577x1
      (multiReduction .add [1] S577 (mulf e e) 0x00000000#32 reduces_S577x768_S577 (.inl rfl) rfl) shapeCasts_S577_S577x1))
      (broadcast S577x1 (Scalar.ofBits (F := Ideal) .f32 0x322BCC77#32))) broadcasts_S577x1_S577x768 (ix2 n j)) = _
  rw [broadcastTo_a1_ab_apply _ broadcasts_S577x1_S577x768 n j]
  show Ideal.div (e (ix2 n j)) (Ideal.sqrt (shapeCast S577x1
      (multiReduction .add [1] S577 (mulf e e) 0x00000000#32 reduces_S577x768_S577 (.inl rfl) rfl) shapeCasts_S577_S577x1
      (ix2 n (0 : Fin 1))) + Cert.Attn.eps8) = _
  rw [shapeCast_a_a1_apply _ shapeCasts_S577_S577x1 n (0 : Fin 1), laneSum768_apply]
  rfl

theorem cosV_apply (u : FVec Ideal S577x768 .f32) (n m : Fin 577) :
    cosV u (ix2 n m) = ∑ j : Fin 768, u (ix2 n j) * u (ix2 m j) :=
  matmul768_apply _ _ n m

theorem rawV_apply (dist cos : FVec Ideal S577x577 .f32) (i : S577x577.Idx) :
    rawV dist cos i = (Cert.Attn.oneF * dist i) * (Cert.Attn.oneF - cos i) := rfl

/-- THE RAW PENALTY at `(n, m)`: the specification's, of the two position coordinates and the embedding rows. -/
theorem rawPenalty_apply (x3 : Vec Ideal S1x577x2 .f32) (x4 : Vec Ideal S1x577x768 .f32) (n m : Fin 577) :
    Gen.k0_pay3 (F := Ideal) x3 x4 (ix2 n m)
      = Cert.Attn.rawPenalty (fun n => x3 (ix3 0 n 0)) (fun n => x3 (ix3 0 n 1)) (fun n j => x4 (ix3 0 n j)) n m := by
  have he : (fun n j => shapeCast S577x768 x4 shapeCasts_S1x577x768_S577x768 (ix2 n j)) = fun n j => x4 (ix3 0 n j) :=
    funext fun n => funext fun j => shapeCast_1ab_ab_apply x4 shapeCasts_S1x577x768_S577x768 n j
  rw [k0_pay3_eq, rawV_apply, distV_apply, dxV_apply, dyV_apply, cosV_apply]
  simp only [unitV_apply, he]
  rw [shapeCast_1ab_ab_apply x3 shapeCasts_S1x577x2_S577x2 n 0, shapeCast_1ab_ab_apply x3 shapeCasts_S1x577x2_S577x2 m 0,
    shapeCast_1ab_ab_apply x3 shapeCasts_S1x577x2_S577x2 n 1, shapeCast_1ab_ab_apply x3 shapeCasts_S1x577x2_S577x2 m 1]
  rfl

/-! ## The mask of the class row and column, and the stored penalty -/

/-- The mask bit at `(n, m)` is set exactly when neither coordinate is the class token's. -/
theorem mask_apply (n m : Fin 577) : Gen.k0_pay4 (ix2 n m) = 1#1 ↔ 0 < n.val ∧ 0 < m.val := by
  unfold Gen.k0_pay4
  show IntOp.andi (IntOp.cmpi .sgt (iota .tc S577x577 32 [0] iota_S577x577_d0_w32 (ix2 n m)) 0#32)
      (IntOp.cmpi .sgt (iota .tc S577x577 32 [1] iota_S577x577_d1_w32 (ix2 n m)) 0#32) = 1#1 ↔ _
  rw [iota_single_apply .tc S577x577 32 0 iota_S577x577_d0_w32 (ix2 n m),
    iota_single_apply .tc S577x577 32 1 iota_S577x577_d1_w32 (ix2 n m), IntOp.andi_eq_one]
  show IntOp.cmpi .sgt (BitVec.ofNat 32 n.val) 0#32 = 1#1 ∧ IntOp.cmpi .sgt (BitVec.ofNat 32 m.val) 0#32 = 1#1 ↔ _
  rw [cmpi_sgt_ofNat_zero_eq_one n.val (by have := n.isLt; omega), cmpi_sgt_ofNat_zero_eq_one m.val (by have := m.isLt; omega)]

/-- What is stored in the scratch: the first operand where the bit is set, zero elsewhere. -/
theorem k0_pay1_apply (v45 : FVec Ideal S577x577 .f32) (v52 : IVec S577x577 1) (i : S577x577.Idx) :
    Gen.k0_pay1 (F := Ideal) v45 v52 i = Scalar.select (v52 i) (v45 i) 0 := by
  unfold Gen.k0_pay1
  show shapeCast S577x577 (select v52 v45 (broadcast S577x577 (Scalar.ofBits (F := Ideal) .f32 0x00000000#32)))
      shapeCasts_S577x577_S577x577 i = _
  rw [shapeCast_self]
  show Scalar.select (v52 i) (v45 i) (Ideal.ofBits .f32 0x00000000#32) = _
  rw [Ideal.ofBits_zero_f32]

/-- THE PENALTY stored in the scratch, at `(n, m)`: the specification's. -/
theorem penalty_apply (x3 : Vec Ideal S1x577x2 .f32) (x4 : Vec Ideal S1x577x768 .f32) (n m : Fin 577) :
    Gen.k0_pay1 (F := Ideal) (Gen.k0_pay3 x3 x4) Gen.k0_pay4 (ix2 n m)
      = Cert.Attn.penalty (fun n => x3 (ix3 0 n 0)) (fun n => x3 (ix3 0 n 1)) (fun n j => x4 (ix3 0 n j)) n m := by
  rw [k0_pay1_apply, rawPenalty_apply]
  unfold Cert.Attn.penalty Scalar.select
  exact if_congr (mask_apply n m) rfl rfl

end Cert.KernelIdeal.PayloadValue

end
-- ==== Proof.IdealBlockValue.lean ====
/-
  What the output block and the scratch hold after each grid point, as functions of the windows' blocks, over the extended
  reals. The scratch holds the batch's penalty matrix: at a first head block the matrix just computed from the position and
  embedding blocks, and it is carried unchanged to the batch's other head blocks, whose position and embedding blocks are
  the same (they depend on the batch only). The output block holds, in slab k, head k's attention output computed from
  that penalty matrix, the mask block and slab k of the query, key and value blocks: the four slab stores are blocks of one
  function of the output block's index.
-/
import proofs.«156862_j47253230191316_2_alg».proof.Proof.IdealPieces
import proofs.«156862_j47253230191316_2_alg».proof.Proof.PayloadValue
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayloadValue

/-- The penalty matrix from a batch's position and embedding blocks. -/
def penBlk (x3 : Vec Ideal S1x577x2 .f32) (x4 : Vec Ideal S1x577x768 .f32) : Vec Ideal S577x577 .f32 :=
  k0_pay1 (F := Ideal) (k0_pay3 x3 x4) k0_pay4

/-- The output block as one function of its index: at (0, k, n, d) head k's attention output at (n, d). -/
def headBlk (v3 : Vec Ideal S577x577 .f32) (v4 : Vec Ideal S1x577x577 .i32) (x0 x1 x2 : Vec Ideal S1x4x577x64 .f32) :
    S1x4x577x64.Idx → EReal := fun y =>
  Cert.Attn.head (Cert.Attn.logit (fun n m => IntOp.cmpi .ne (v4 (ix3 0 n m)) 0#32) (fun n d => x0 (ix4 0 (y 1) n d))
      (fun m d => x1 (ix4 0 (y 1) m d)) (fun n m => v3 (ix2 n m)))
    (fun m d => x2 (ix4 0 (y 1) m d)) (y 2) (y 3)

theorem eq_ix4_00 (x : S1x1x577x64.Idx) : x = ix4 0 0 (x 2) (x 3) := by
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl
  | ⟨3, _⟩ => rfl

theorem trips_le (k : Fin k0_t1_loop.trips) : k.val < 4 := Nat.lt_of_lt_of_le k.isLt k0_t1_abs.2.1

/-- Slab k of a block read at (0, 0, n, d) is the block at (0, k, n, d). -/
theorem readAt_slab (arg : Memref sig .tc .vmem S1x4x577x64 .f32) (harg : arg.IsWhole) (x0 : Vec Ideal S1x4x577x64 .f32)
    (k : Fin k0_t1_loop.trips) (n : Fin 577) (d : Fin 64) :
    (View.readAt (Elt Ideal) arg.view (Rect.unit (s := S1x4x577x64) (k0_off1 k) S1x1x577x64.size (k0_off1_inb k)).toLoadRect (harg.unread x0)) (ix4 0 0 n d) = x0 (ix4 0 ⟨k.val, trips_le k⟩ n d) := by
  rw [View.readAt_eq_ld, harg.read_unread]
  show x0 ((Rect.unit (s := S1x4x577x64) (k0_off1 k) S1x1x577x64.size (k0_off1_inb k)).idx (ix4 0 0 n d)) = _
  congr 1
  funext a
  apply Fin.ext
  rw [LoadRect.idx_apply]
  simp only [Rect.off_unit, Rect.stride_unit, k0_off1_eq]
  match a with
  | ⟨0, _⟩ => rfl
  | ⟨1, _⟩ => show k.val + 1 * 0 = k.val; omega
  | ⟨2, _⟩ => show 0 + 1 * n.val = n.val; omega
  | ⟨3, _⟩ => show 0 + 1 * d.val = d.val; omega

/-- Where slab k's local index (0, 0, n, d) sits in the block. -/
theorem emb_slab (k : Fin k0_t1_loop.trips) (n : Fin 577) (d : Fin 64) :
    (Rect.unit (s := S1x4x577x64) (k0_off1 k) S1x1x577x64.size (k0_off1_inb k)).emb (ix4 0 0 n d) = ix4 0 ⟨k.val, trips_le k⟩ n d := by
  funext a
  apply Fin.ext
  rw [Rect.emb_apply]
  simp only [Rect.off_unit, Rect.stride_unit, k0_off1_eq]
  match a with
  | ⟨0, _⟩ => rfl
  | ⟨1, _⟩ => show k.val + 1 * 0 = k.val; omega
  | ⟨2, _⟩ => show 0 + 1 * n.val = n.val; omega
  | ⟨3, _⟩ => show 0 + 1 * d.val = d.val; omega

/-- A head's output from rows that are slab `kf` of the blocks is `headBlk` at slab `kf`. -/
theorem head_slab (v3 : Vec Ideal S577x577 .f32) (v4 : Vec Ideal S1x577x577 .i32) (x0 x1 x2 : Vec Ideal S1x4x577x64 .f32)
    (v9 v12 v15 : Vec Ideal S1x1x577x64 .f32) (kf : Fin 4)
    (h0 : ∀ (n : Fin 577) (d : Fin 64), v9 (ix4 0 0 n d) = x0 (ix4 0 kf n d))
    (h1 : ∀ (n : Fin 577) (d : Fin 64), v12 (ix4 0 0 n d) = x1 (ix4 0 kf n d))
    (h2 : ∀ (n : Fin 577) (d : Fin 64), v15 (ix4 0 0 n d) = x2 (ix4 0 kf n d)) (n : Fin 577) (d : Fin 64) :
    k0_pay2 (F := Ideal) v3 v4 v9 v12 v15 (ix4 0 0 n d) = headBlk v3 v4 x0 x1 x2 (ix4 0 kf n d) := by
  rw [head_apply]
  have e0 : (fun (n : Fin 577) (d : Fin 64) => v9 (ix4 0 0 n d)) = fun n d => x0 (ix4 0 kf n d) := funext fun n => funext fun d => h0 n d
  have e1 : (fun (n : Fin 577) (d : Fin 64) => v12 (ix4 0 0 n d)) = fun n d => x1 (ix4 0 kf n d) := funext fun n => funext fun d => h1 n d
  have e2 : (fun (n : Fin 577) (d : Fin 64) => v15 (ix4 0 0 n d)) = fun n d => x2 (ix4 0 kf n d) := funext fun n => funext fun d => h2 n d
  rw [e0, e1, e2]
  rfl

/-- Trip k's store is slab k of `headBlk`. -/
theorem piece_eq (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole)
    (v3 : Vec Ideal S577x577 .f32) (v4 : Vec Ideal S1x577x577 .i32) (x0 x1 x2 : Vec Ideal S1x4x577x64 .f32)
    (k : Fin k0_t1_loop.trips) (x : S1x1x577x64.Idx) :
    k0_pay2 (F := Ideal) v3 v4 (View.readAt (Elt Ideal) arg2.view (Rect.unit (s := S1x4x577x64) (k0_off1 k) S1x1x577x64.size (k0_off1_inb k)).toLoadRect (harg2.unread x0)) (View.readAt (Elt Ideal) arg3.view (Rect.unit (s := S1x4x577x64) (k0_off1 k) S1x1x577x64.size (k0_off1_inb k)).toLoadRect (harg3.unread x1)) (View.readAt (Elt Ideal) arg4.view (Rect.unit (s := S1x4x577x64) (k0_off1 k) S1x1x577x64.size (k0_off1_inb k)).toLoadRect (harg4.unread x2)) x
      = headBlk v3 v4 x0 x1 x2 ((Rect.unit (s := S1x4x577x64) (k0_off1 k) S1x1x577x64.size (k0_off1_inb k)).emb x) := by
  obtain ⟨n, d, rfl⟩ : ∃ (n : Fin 577) (d : Fin 64), x = ix4 0 0 n d := ⟨x 2, x 3, eq_ix4_00 x⟩
  rw [emb_slab]
  exact head_slab v3 v4 x0 x1 x2 _ _ _ ⟨k.val, trips_le k⟩ (readAt_slab arg2 harg2 x0 k) (readAt_slab arg3 harg3 x1 k) (readAt_slab arg4 harg4 x2 k) n d

/-- The penalty matrix a first head block computes, from the run's own names. -/
theorem slr_eq (c : Dev nD) (arg5 : Memref sig .tc .vmem S1x577x2 .f32) (harg5 : arg5.IsWhole) (arg6 : Memref sig .tc .vmem S1x577x768 .f32) (harg6 : arg6.IsWhole)
    (x3 : Vec Ideal S1x577x2 .f32) (x4 : Vec Ideal S1x577x768 .f32) :
    kernelRun0_A.sl.r (F := Ideal) c arg5 harg5 arg6 harg6 x3 x4 = k0_pay3 x3 x4 := by
  unfold kernelRun0_A.sl.r
  rw [readAt_whole_pos, readAt_whole_emb]

theorem hz2 : (![0, 0] : Fin S577x577.rank → ℕ) = fun _ => 0 :=
  funext fun a => by match a with | ⟨0, _⟩ => rfl | ⟨1, _⟩ => rfl

theorem slHS_eq (c : Dev nD) (arg5 : Memref sig .tc .vmem S1x577x2 .f32) (harg5 : arg5.IsWhole) (arg6 : Memref sig .tc .vmem S1x577x768 .f32) (harg6 : arg6.IsWhole)
    (x3 : Vec Ideal S1x577x2 .f32) (x4 : Vec Ideal S1x577x768 .f32) :
    View.canon (kernelRun0_A.sl.HS0_1 (F := Ideal) c arg5 harg5 arg6 harg6 x3 x4) = penBlk x3 x4 := by
  unfold kernelRun0_A.sl.HS0_1
  rw [View.canon_unit_zero hz2, slr_eq]
  rfl

theorem slv3_eq (c : Dev nD) (arg5 : Memref sig .tc .vmem S1x577x2 .f32) (harg5 : arg5.IsWhole) (arg6 : Memref sig .tc .vmem S1x577x768 .f32) (harg6 : arg6.IsWhole)
    (arg9 : Memref sig .tc .vmem S577x577 .f32) (x3 : Vec Ideal S1x577x2 .f32) (x4 : Vec Ideal S1x577x768 .f32) :
    kernelRun0_A.sl.v3 (F := Ideal) c arg5 harg5 arg6 harg6 arg9 x3 x4 = penBlk x3 x4 := by
  unfold kernelRun0_A.sl.v3 kernelRun0_A.sl.HS0_1
  rw [View.readCov_unit_zero _ hz2, slr_eq]
  rfl

/-- What a first head block leaves in the scratch. -/
theorem sout_A (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i) (x0 : Vec Ideal S1x4x577x64 .f32) (x1 : Vec Ideal S1x4x577x64 .f32) (x2 : Vec Ideal S1x4x577x64 .f32) (x3 : Vec Ideal S1x577x2 .f32) (x4 : Vec Ideal S1x577x768 .f32) (x5 : Vec Ideal S1x577x577 .i32) :
    sout0_A_0 (F := Ideal) c i arg2 harg2 arg3 harg3 arg4 harg4 arg5 harg5 arg6 harg6 arg7 harg7 arg8 harg8 arg9 harg9 hc0 x0 x1 x2 x3 x4 x5 = penBlk x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  have e : (kernelRun0_A (F := Ideal) c i arg2 harg2 arg3 harg3 arg4 harg4 arg5 harg5 arg6 harg6 arg7 harg7 arg8 harg8 arg9 harg9 hc0 x0 x1 x2 x3 x4 x5).2.1 = kernelRun0_A.sl.HS0_1 c arg5 harg5 arg6 harg6 x3 x4 := by
    unfold kernelRun0_A; rfl
  rw [e, slHS_eq]

/-- What a first head block leaves in the output block. -/
theorem out_A (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : cond0_0 i) (x0 : Vec Ideal S1x4x577x64 .f32) (x1 : Vec Ideal S1x4x577x64 .f32) (x2 : Vec Ideal S1x4x577x64 .f32) (x3 : Vec Ideal S1x577x2 .f32) (x4 : Vec Ideal S1x577x768 .f32) (x5 : Vec Ideal S1x577x577 .i32) :
    out0_A_6 (F := Ideal) c i arg2 harg2 arg3 harg3 arg4 harg4 arg5 harg5 arg6 harg6 arg7 harg7 arg8 harg8 arg9 harg9 hc0 x0 x1 x2 x3 x4 x5 = headBlk (penBlk x3 x4) x5 x0 x1 x2 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  funext y
  refine View.canon_apply_of_pieces (headBlk (penBlk x3 x4) x5 x0 x1 x2) _ (fun p hp x => ?_) y (cover0_A_6 c i arg2 harg2 arg3 harg3 arg4 harg4 arg5 harg5 arg6 harg6 arg7 harg7 arg8 harg8 arg9 harg9 hc0 x0 x1 x2 x3 x4 x5 y)
  have e : (kernelRun0_A (F := Ideal) c i arg2 harg2 arg3 harg3 arg4 harg4 arg5 harg5 arg6 harg6 arg7 harg7 arg8 harg8 arg9 harg9 hc0 x0 x1 x2 x3 x4 x5).1
      = pb_k0_t1 Variants.none c none i arg2 harg2 arg3 harg3 arg4 harg4 arg5 harg5 arg6 harg6 arg7 harg7 arg8 harg8 arg9 harg9 (kernelRun0_A.sl.v3 c arg5 harg5 arg6 harg6 arg9 x3 x4)
          (View.readAt (Elt Ideal) arg7.view (Rect.unit (s := S1x577x577) ![0, 0, 0] S1x577x577.size inb_S1x577x577_S1x577x577_0_0_0).toLoadRect (harg7.unread x5))
          (harg2.unread x0) (harg3.unread x1) (harg4.unread x2) (Scf.trips (0#32) (Scalar.addi 0#32 4#32) 1#32) := by
    unfold kernelRun0_A; rfl
  rw [e, slv3_eq, readAt_whole_mask] at hp
  obtain ⟨k, rfl⟩ := pb_mem c i arg2 harg2 arg3 harg3 arg4 harg4 arg5 harg5 arg6 harg6 arg7 harg7 arg8 harg8 arg9 harg9 _ _ _ _ _ _ p hp
  exact piece_eq arg2 harg2 arg3 harg3 arg4 harg4 _ _ x0 x1 x2 k x

/-- What a later head block leaves in the output block, over the scratch `xs0` it finds. -/
theorem out_B (c : Dev nD) (i : grid0.Coords) (arg2 : Memref sig .tc .vmem S1x4x577x64 .f32) (harg2 : arg2.IsWhole) (arg3 : Memref sig .tc .vmem S1x4x577x64 .f32) (harg3 : arg3.IsWhole) (arg4 : Memref sig .tc .vmem S1x4x577x64 .f32) (harg4 : arg4.IsWhole) (arg5 : Memref sig .tc .vmem S1x577x2 .f32) (harg5 : arg5.IsWhole) (arg6 : Memref sig .tc .vmem S1x577x768 .f32) (harg6 : arg6.IsWhole) (arg7 : Memref sig .tc .vmem S1x577x577 .i32) (harg7 : arg7.IsWhole) (arg8 : Memref sig .tc .vmem S1x4x577x64 .f32) (harg8 : arg8.IsWhole) (arg9 : Memref sig .tc .vmem S577x577 .f32) (harg9 : arg9.IsWhole) (hc0 : ¬cond0_0 i) (x0 : Vec Ideal S1x4x577x64 .f32) (x1 : Vec Ideal S1x4x577x64 .f32) (x2 : Vec Ideal S1x4x577x64 .f32) (x3 : Vec Ideal S1x577x2 .f32) (x4 : Vec Ideal S1x577x768 .f32) (x5 : Vec Ideal S1x577x577 .i32) (xs0 : Vec Ideal S577x577 .f32) :
    out0_B_6 (F := Ideal) c i arg2 harg2 arg3 harg3 arg4 harg4 arg5 harg5 arg6 harg6 arg7 harg7 arg8 harg8 arg9 harg9 hc0 x0 x1 x2 x3 x4 x5 xs0 = headBlk xs0 x5 x0 x1 x2 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  funext y
  refine View.canon_apply_of_pieces (headBlk xs0 x5 x0 x1 x2) _ (fun p hp x => ?_) y (cover0_B_6 c i arg2 harg2 arg3 harg3 arg4 harg4 arg5 harg5 arg6 harg6 arg7 harg7 arg8 harg8 arg9 harg9 hc0 x0 x1 x2 x3 x4 x5 xs0 y)
  have e : (kernelRun0_B (F := Ideal) c i arg2 harg2 arg3 harg3 arg4 harg4 arg5 harg5 arg6 harg6 arg7 harg7 arg8 harg8 arg9 harg9 hc0 x0 x1 x2 x3 x4 x5 xs0).1
      = pb_k0_t1 Variants.none c none i arg2 harg2 arg3 harg3 arg4 harg4 arg5 harg5 arg6 harg6 arg7 harg7 arg8 harg8 arg9 harg9
          (View.readAt (Elt Ideal) arg9.view (Rect.unit (s := S577x577) ![0, 0] S577x577.size inb_S577x577_S577x577_0_0).toLoadRect (harg9.unread xs0))
          (View.readAt (Elt Ideal) arg7.view (Rect.unit (s := S1x577x577) ![0, 0, 0] S1x577x577.size inb_S1x577x577_S1x577x577_0_0_0).toLoadRect (harg7.unread x5))
          (harg2.unread x0) (harg3.unread x1) (harg4.unread x2) (Scf.trips (0#32) (Scalar.addi 0#32 4#32) 1#32) := by
    unfold kernelRun0_B; rfl
  rw [e, readAt_whole2, readAt_whole_mask] at hp
  obtain ⟨k, rfl⟩ := pb_mem c i arg2 harg2 arg3 harg3 arg4 harg4 arg5 harg5 arg6 harg6 arg7 harg7 arg8 harg8 arg9 harg9 _ _ _ _ _ _ p hp
  exact piece_eq arg2 harg2 arg3 harg3 arg4 harg4 _ _ x0 x1 x2 k x

end Cert.KernelIdeal.Body

end
-- ==== Proof.IdealBlocks.lean ====
/-
  The blocks of the kernel's windows, read at coordinates in terms of the six argument arrays.

  The grid is 16 × 3 (batch, block of four heads), the head block the fast axis: point `t` has batch `t / 3` and head
  block `t % 3`. Windows 0, 1, 2 (queries, keys, values) and the output window 6 have blocks `[1, 4, 577, 64]` at block
  index `(t / 3, t % 3, 0, 0)`: entry `(0, k, n, d)` of the block is entry `(t / 3, 4 · (t % 3) + k, n, d)` of the array.
  Windows 3, 4, 5 (positions, embeddings, mask) have blocks `[1, 577, ·]` at block index `(t / 3, 0, 0)`: entry
  `(0, n, j)` of the block is entry `(t / 3, n, j)` of the array. The array of window 3 is the positions padded with
  one zero row in front of each batch's 576 rows, the array of window 5 the mask bits widened to words, each computed
  before the kernel is entered from an argument array: read at an index they are `Cert.Attn.pos` of the positions, and
  (against the zero word) the mask bit itself. Last, the output window: where its blocks sit in the result array, and
  that every index of the result lies in the block of one point.
-/
import proofs.«156862_j47253230191316_2_alg».proof.Proof.Gen.KernelIdeal.Frame
import proofs.«156862_j47253230191316_2_alg».proof.Proof.Spec
import proofs.«156862_j47253230191316_2_alg».proof.Proof.LibCoords
import Idealize.ShloMosaic.Lib.KernelVsHost
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Idealize.ShloMosaic.StableHlo
open Cert.KernelIdeal.Gen Cert.LibCoords

variable (m : (ℓ : Loc nD τ sig) → Buf (Elt Ideal) ℓ)

/-! ## The grid's points -/

/-- A point's number is below 48. -/
theorem point_lt (t : Fin cfg0.N) : t.val < 48 := lt_of_lt_of_eq t.isLt Gen.N_0

/-- The batch of point `t`: the slow grid coordinate. -/
abbrev batchOf (t : Fin cfg0.N) : Fin 16 := ⟨t.val / 3, by have := point_lt t; omega⟩

/-- Head `k` of the four heads of point `t`'s block. -/
abbrev headOf (t : Fin cfg0.N) (k : Fin 4) : Fin 12 := ⟨4 * (t.val % 3) + k.val, by omega⟩

/-- The printed index maps over the grid: the batch on the first axis, the head block on the second axis of the
    four-axis windows, zero elsewhere. -/
theorem idx_facts : ∀ t : Fin cfg0.N,
    win0_0.index t (0 : Fin 4) = t.val / 3 ∧ win0_0.index t (1 : Fin 4) = t.val % 3
    ∧ win0_0.index t (2 : Fin 4) = 0 ∧ win0_0.index t (3 : Fin 4) = 0
    ∧ win0_1.index t (0 : Fin 4) = t.val / 3 ∧ win0_1.index t (1 : Fin 4) = t.val % 3
    ∧ win0_1.index t (2 : Fin 4) = 0 ∧ win0_1.index t (3 : Fin 4) = 0
    ∧ win0_2.index t (0 : Fin 4) = t.val / 3 ∧ win0_2.index t (1 : Fin 4) = t.val % 3
    ∧ win0_2.index t (2 : Fin 4) = 0 ∧ win0_2.index t (3 : Fin 4) = 0
    ∧ win0_3.index t (0 : Fin 3) = t.val / 3 ∧ win0_3.index t (1 : Fin 3) = 0 ∧ win0_3.index t (2 : Fin 3) = 0
    ∧ win0_4.index t (0 : Fin 3) = t.val / 3 ∧ win0_4.index t (1 : Fin 3) = 0 ∧ win0_4.index t (2 : Fin 3) = 0
    ∧ win0_5.index t (0 : Fin 3) = t.val / 3 ∧ win0_5.index t (1 : Fin 3) = 0 ∧ win0_5.index t (2 : Fin 3) = 0
    ∧ win0_6.index t (0 : Fin 4) = t.val / 3 ∧ win0_6.index t (1 : Fin 4) = t.val % 3
    ∧ win0_6.index t (2 : Fin 4) = 0 ∧ win0_6.index t (3 : Fin 4) = 0 :=
  (by decide +kernel : ∀ t : Fin grid0.N, _)

/-! ## Where a block's entry sits in its array -/

/-- Window 0: entry `(u, k, n, d)` of point `t`'s block is entry `(t / 3, 4 · (t % 3) + k, n, d)` of the array. -/
theorem emb0 (t : Fin cfg0.N) (u : Fin 1) (k : Fin 4) (n : Fin 577) (d : Fin 64) :
    ((cfg0.win 0).blk t).view.emb (ix4 u k n d) = ix4 (batchOf t) (headOf t k) n d := by
  have h := idx_facts t
  have hu : u.val = 0 := by omega
  funext a; apply Fin.ext
  match a with
  | ⟨0, _⟩ => show win0_0.index t (0 : Fin 4) * 1 + 1 * u.val = t.val / 3; omega
  | ⟨1, _⟩ => show win0_0.index t (1 : Fin 4) * 4 + 1 * k.val = 4 * (t.val % 3) + k.val; omega
  | ⟨2, _⟩ => show win0_0.index t (2 : Fin 4) * 577 + 1 * n.val = n.val; omega
  | ⟨3, _⟩ => show win0_0.index t (3 : Fin 4) * 64 + 1 * d.val = d.val; omega

/-- Window 1: entry `(u, k, n, d)` of point `t`'s block is entry `(t / 3, 4 · (t % 3) + k, n, d)` of the array. -/
theorem emb1 (t : Fin cfg0.N) (u : Fin 1) (k : Fin 4) (n : Fin 577) (d : Fin 64) :
    ((cfg0.win 1).blk t).view.emb (ix4 u k n d) = ix4 (batchOf t) (headOf t k) n d := by
  have h := idx_facts t
  have hu : u.val = 0 := by omega
  funext a; apply Fin.ext
  match a with
  | ⟨0, _⟩ => show win0_1.index t (0 : Fin 4) * 1 + 1 * u.val = t.val / 3; omega
  | ⟨1, _⟩ => show win0_1.index t (1 : Fin 4) * 4 + 1 * k.val = 4 * (t.val % 3) + k.val; omega
  | ⟨2, _⟩ => show win0_1.index t (2 : Fin 4) * 577 + 1 * n.val = n.val; omega
  | ⟨3, _⟩ => show win0_1.index t (3 : Fin 4) * 64 + 1 * d.val = d.val; omega

/-- Window 2: entry `(u, k, n, d)` of point `t`'s block is entry `(t / 3, 4 · (t % 3) + k, n, d)` of the array. -/
theorem emb2 (t : Fin cfg0.N) (u : Fin 1) (k : Fin 4) (n : Fin 577) (d : Fin 64) :
    ((cfg0.win 2).blk t).view.emb (ix4 u k n d) = ix4 (batchOf t) (headOf t k) n d := by
  have h := idx_facts t
  have hu : u.val = 0 := by omega
  funext a; apply Fin.ext
  match a with
  | ⟨0, _⟩ => show win0_2.index t (0 : Fin 4) * 1 + 1 * u.val = t.val / 3; omega
  | ⟨1, _⟩ => show win0_2.index t (1 : Fin 4) * 4 + 1 * k.val = 4 * (t.val % 3) + k.val; omega
  | ⟨2, _⟩ => show win0_2.index t (2 : Fin 4) * 577 + 1 * n.val = n.val; omega
  | ⟨3, _⟩ => show win0_2.index t (3 : Fin 4) * 64 + 1 * d.val = d.val; omega

/-- Window 3: entry `(u, n, j)` of point `t`'s block is entry `(t / 3, n, j)` of the array. -/
theorem emb3 (t : Fin cfg0.N) (u : Fin 1) (n : Fin 577) (j : Fin 2) :
    ((cfg0.win 3).blk t).view.emb (ix3 u n j) = ix3 (batchOf t) n j := by
  have h := idx_facts t
  have hu : u.val = 0 := by omega
  funext a; apply Fin.ext
  match a with
  | ⟨0, _⟩ => show win0_3.index t (0 : Fin 3) * 1 + 1 * u.val = t.val / 3; omega
  | ⟨1, _⟩ => show win0_3.index t (1 : Fin 3) * 577 + 1 * n.val = n.val; omega
  | ⟨2, _⟩ => show win0_3.index t (2 : Fin 3) * 2 + 1 * j.val = j.val; omega

/-- Window 4: entry `(u, n, j)` of point `t`'s block is entry `(t / 3, n, j)` of the array. -/
theorem emb4 (t : Fin cfg0.N) (u : Fin 1) (n : Fin 577) (j : Fin 768) :
    ((cfg0.win 4).blk t).view.emb (ix3 u n j) = ix3 (batchOf t) n j := by
  have h := idx_facts t
  have hu : u.val = 0 := by omega
  funext a; apply Fin.ext
  match a with
  | ⟨0, _⟩ => show win0_4.index t (0 : Fin 3) * 1 + 1 * u.val = t.val / 3; omega
  | ⟨1, _⟩ => show win0_4.index t (1 : Fin 3) * 577 + 1 * n.val = n.val; omega
  | ⟨2, _⟩ => show win0_4.index t (2 : Fin 3) * 768 + 1 * j.val = j.val; omega

/-- Window 5: entry `(u, n, j)` of point `t`'s block is entry `(t / 3, n, j)` of the array. -/
theorem emb5 (t : Fin cfg0.N) (u : Fin 1) (n : Fin 577) (j : Fin 577) :
    ((cfg0.win 5).blk t).view.emb (ix3 u n j) = ix3 (batchOf t) n j := by
  have h := idx_facts t
  have hu : u.val = 0 := by omega
  funext a; apply Fin.ext
  match a with
  | ⟨0, _⟩ => show win0_5.index t (0 : Fin 3) * 1 + 1 * u.val = t.val / 3; omega
  | ⟨1, _⟩ => show win0_5.index t (1 : Fin 3) * 577 + 1 * n.val = n.val; omega
  | ⟨2, _⟩ => show win0_5.index t (2 : Fin 3) * 577 + 1 * j.val = j.val; omega

/-- Window 6: entry `(u, k, n, d)` of point `t`'s block is entry `(t / 3, 4 · (t % 3) + k, n, d)` of the array. -/
theorem emb6 (t : Fin cfg0.N) (u : Fin 1) (k : Fin 4) (n : Fin 577) (d : Fin 64) :
    ((cfg0.win 6).blk t).view.emb (ix4 u k n d) = ix4 (batchOf t) (headOf t k) n d := by
  have h := idx_facts t
  have hu : u.val = 0 := by omega
  funext a; apply Fin.ext
  match a with
  | ⟨0, _⟩ => show win0_6.index t (0 : Fin 4) * 1 + 1 * u.val = t.val / 3; omega
  | ⟨1, _⟩ => show win0_6.index t (1 : Fin 4) * 4 + 1 * k.val = 4 * (t.val % 3) + k.val; omega
  | ⟨2, _⟩ => show win0_6.index t (2 : Fin 4) * 577 + 1 * n.val = n.val; omega
  | ⟨3, _⟩ => show win0_6.index t (3 : Fin 4) * 64 + 1 * d.val = d.val; omega

/-! ## The blocks of the argument arrays the kernel stages as they are -/

/-- The query block: head `k` of the block, row `n`, lane `d`. -/
theorem iblk0_apply (c : Dev nD) (t : Fin cfg0.N) (k : Fin 4) (n : Fin 577) (d : Fin 64) :
    Gen.iblk m c 0 t (ix4 0 k n d) = m ((c : Thread nD τ).loc main_arg0) (ix4 (batchOf t) (headOf t k) n d) := by
  unfold Gen.iblk
  show Gen.V m c main_arg0 (((cfg0.win 0).blk t).view.emb (ix4 0 k n d)) = _
  rw [Gen.V_main_arg0, emb0]

/-- The key block. -/
theorem iblk1_apply (c : Dev nD) (t : Fin cfg0.N) (k : Fin 4) (n : Fin 577) (d : Fin 64) :
    Gen.iblk m c 1 t (ix4 0 k n d) = m ((c : Thread nD τ).loc main_arg1) (ix4 (batchOf t) (headOf t k) n d) := by
  unfold Gen.iblk
  show Gen.V m c main_arg1 (((cfg0.win 1).blk t).view.emb (ix4 0 k n d)) = _
  rw [Gen.V_main_arg1, emb1]

/-- The value block. -/
theorem iblk2_apply (c : Dev nD) (t : Fin cfg0.N) (k : Fin 4) (n : Fin 577) (d : Fin 64) :
    Gen.iblk m c 2 t (ix4 0 k n d) = m ((c : Thread nD τ).loc main_arg2) (ix4 (batchOf t) (headOf t k) n d) := by
  unfold Gen.iblk
  show Gen.V m c main_arg2 (((cfg0.win 2).blk t).view.emb (ix4 0 k n d)) = _
  rw [Gen.V_main_arg2, emb2]

/-- The embedding block. -/
theorem iblk4_apply (c : Dev nD) (t : Fin cfg0.N) (n : Fin 577) (j : Fin 768) :
    Gen.iblk m c 4 t (ix3 0 n j) = m ((c : Thread nD τ).loc main_arg5) (ix3 (batchOf t) n j) := by
  unfold Gen.iblk
  show Gen.V m c main_arg5 (((cfg0.win 4).blk t).view.emb (ix3 0 n j)) = _
  rw [Gen.V_main_arg5, emb4]

/-! ## The padded positions -/

/-- When the kernel is entered, the array of window 3 is the positions padded with one row in front on the token axis,
    the padding value the conversion of the integer zero. -/
theorem V_main_v0 (c : Dev nD) :
    (Gen.V m c main_v0 : S16x577x2.Idx → EReal)
      = pad S16x577x2 ![0, 1, 0] ![0, 0, 0] ![0, 0, 0] (m ((c : Thread nD τ).loc main_arg4))
          (sitofp (F := Ideal) .f32 (constantI S_ 32 0#32)) pads_S16x576x2_S16x577x2_000_100_000 h_S_ := by
  dsimp only [Gen.V]
  simp only [Gen.hostOps0, Gen.hostOps0_1, Gen.hostOps0_2, List.flatten_cons, List.flatten_nil, List.append_nil,
    List.cons_append, List.nil_append]
  after_results
  rfl

/-- The padded positions at `(b, n, j)`: coordinate `j` of patch `n − 1` of batch `b`, and zero for the class token. -/
theorem pad_pos_apply (P : S16x576x2.Idx → EReal) (b : Fin 16) (n : Fin 577) (j : Fin 2) :
    pad S16x577x2 ![0, 1, 0] ![0, 0, 0] ![0, 0, 0] P (sitofp (F := Ideal) .f32 (constantI S_ 32 0#32))
        pads_S16x576x2_S16x577x2_000_100_000 h_S_ (ix3 b n j) = Cert.Attn.pos P b j n := by
  unfold Cert.Attn.pos
  by_cases hn : 0 < n.val
  · rw [dif_pos hn]
    refine pad_apply_of_inside _ _ _ P _ pads_S16x576x2_S16x577x2_000_100_000 h_S_ (ix3 b n j)
      (ix3 b (⟨n.val - 1, by have := n.isLt; omega⟩ : Fin 576) j) fun a => ?_
    match a with
    | ⟨0, _⟩ => show b.val = 0 + b.val * (0 + 1); omega
    | ⟨1, _⟩ => show n.val = 1 + (n.val - 1) * (0 + 1); omega
    | ⟨2, _⟩ => show j.val = 0 + j.val * (0 + 1); omega
  · rw [dif_neg hn]
    refine (pad_apply_of_not_inside _ _ _ P _ pads_S16x576x2_S16x577x2_000_100_000 h_S_ (ix3 b n j) (1 : Fin 3) ?_).trans ?_
    · show ¬(1 ≤ n.val ∧ (n.val - 1) % (0 + 1) = 0 ∧ (n.val - 1) / (0 + 1) < 576)
      omega
    · show ((((0#32 : BitVec 32).toInt : ℤ) : ℝ) : EReal) = 0
      simp

/-- The position block: coordinate `j` of token `n`'s position in the point's batch. -/
theorem iblk3_apply (c : Dev nD) (t : Fin cfg0.N) (n : Fin 577) (j : Fin 2) :
    Gen.iblk m c 3 t (ix3 0 n j) = Cert.Attn.pos (m ((c : Thread nD τ).loc main_arg4)) (batchOf t) j n := by
  unfold Gen.iblk
  show (Gen.V m c main_v0 : S16x577x2.Idx → EReal) (((cfg0.win 3).blk t).view.emb (ix3 0 n j)) = _
  rw [V_main_v0, emb3]
  exact pad_pos_apply _ (batchOf t) n j

/-! ## The mask as words -/

/-- When the kernel is entered, the array of window 5 is the mask, its unit head axis dropped, each bit widened to a
    32-bit word. -/
theorem V_main_v2 (c : Dev nD) :
    (Gen.V m c main_v2 : S16x577x577.Idx → BitVec 32)
      = extui 32 (shapeCast S16x577x577 (m ((c : Thread nD τ).loc main_arg3)) shapeCasts_S16x1x577x577_S16x577x577)
          natLt_1_32 := by
  dsimp only [Gen.V]
  simp only [Gen.hostOps0, Gen.hostOps0_1, Gen.hostOps0_2, List.flatten_cons, List.flatten_nil, List.append_nil,
    List.cons_append, List.nil_append]
  after_results
  rfl

/-- A `[16, 1, 577, 577]` array cast to `[16, 577, 577]` reads, at `(b, n, n')`, the operand at `(b, 0, n, n')`. -/
theorem shapeCast_mask_apply {α : Type} (M : S16x1x577x577.Idx → α) (b : Fin 16) (n n' : Fin 577) :
    shapeCast S16x577x577 M shapeCasts_S16x1x577x577_S16x577x577 (ix3 b n n') = M (ix4 b (0 : Fin 1) n n') :=
  shapeCast_apply M shapeCasts_S16x1x577x577_S16x577x577 _ _ (by
    rw [Shape.rowMajor_val_four, Shape.rowMajor_val_three]
    show ((b.val * 1 + 0) * 577 + n.val) * 577 + n'.val = (b.val * 577 + n.val) * 577 + n'.val
    omega)

/-- A bit widened to a word is not the zero word exactly when the bit is set: the comparison gives the bit back. -/
theorem cmpi_ne_setWidth : ∀ x : BitVec 1, IntOp.cmpi .ne (x.setWidth 32) 0#32 = x := by decide

/-- The mask block: the test "the word is not zero" of entry `(0, n, n')` is the mask bit `(t / 3, 0, n, n')`. -/
theorem iblk5_apply (c : Dev nD) (t : Fin cfg0.N) (n n' : Fin 577) :
    IntOp.cmpi .ne (Gen.iblk m c 5 t (ix3 0 n n')) 0#32 = m ((c : Thread nD τ).loc main_arg3) (ix4 (batchOf t) 0 n n') := by
  unfold Gen.iblk
  show IntOp.cmpi .ne ((Gen.V m c main_v2 : S16x577x577.Idx → BitVec 32) (((cfg0.win 5).blk t).view.emb (ix3 0 n n'))) 0#32 = _
  rw [V_main_v2, emb5]
  show IntOp.cmpi .ne ((shapeCast S16x577x577 (m ((c : Thread nD τ).loc main_arg3)) shapeCasts_S16x1x577x577_S16x577x577
    (ix3 (batchOf t) n n')).setWidth 32) 0#32 = _
  rw [shapeCast_mask_apply, cmpi_ne_setWidth]

/-! ## The output window: where its blocks sit, and that they cover the result -/

/-- An index of the result is in point `t`'s block iff each coordinate is in the block's range on its axis. -/
theorem mem_blk6 (t : Fin cfg0.N) (i : S16x12x577x64.Idx) :
    i ∈ ((cfg0.win 6).blk t).view.set ↔ ∀ a : Fin 4, win0_6.index t a * S1x4x577x64.size a ≤ (i a).val
      ∧ (i a).val < win0_6.index t a * S1x4x577x64.size a + S1x4x577x64.size a := by
  show i ∈ ((View.whole main_v3).slice (win0_6.rect t)).set ↔ _
  rw [View.set_slice_whole, Rect.mem_set_unit]
  exact Iff.rfl

/-- The point whose block holds index `i` of the result: batch `i 0`, head block `(i 1) / 4`. -/
abbrev pointOf (i : S16x12x577x64.Idx) : Fin cfg0.N :=
  ⟨3 * (i 0).val + (i 1).val / 4, lt_of_lt_of_eq (by
    have h0 : (i 0).val < 16 := (i 0).isLt
    have h1 : (i 1).val < 12 := (i 1).isLt
    omega : 3 * (i 0).val + (i 1).val / 4 < 48) Gen.N_0.symm⟩

/-- Every index of the result lies in the block of its point. -/
theorem mem_blk6_pointOf (i : S16x12x577x64.Idx) : i ∈ ((cfg0.win 6).blk (pointOf i)).view.set := by
  rw [mem_blk6]
  have h := idx_facts (pointOf i)
  have h0 : (i 0).val < 16 := (i 0).isLt
  have h1 : (i 1).val < 12 := (i 1).isLt
  have h2 : (i 2).val < 577 := (i 2).isLt
  have h3 : (i 3).val < 64 := (i 3).isLt
  have hv : (pointOf i).val = 3 * (i 0).val + (i 1).val / 4 := rfl
  intro a
  match a with
  | ⟨0, _⟩ => show win0_6.index (pointOf i) (0 : Fin 4) * 1 ≤ (i 0).val ∧ (i 0).val < win0_6.index (pointOf i) (0 : Fin 4) * 1 + 1; omega
  | ⟨1, _⟩ => show win0_6.index (pointOf i) (1 : Fin 4) * 4 ≤ (i 1).val ∧ (i 1).val < win0_6.index (pointOf i) (1 : Fin 4) * 4 + 4; omega
  | ⟨2, _⟩ => show win0_6.index (pointOf i) (2 : Fin 4) * 577 ≤ (i 2).val ∧ (i 2).val < win0_6.index (pointOf i) (2 : Fin 4) * 577 + 577; omega
  | ⟨3, _⟩ => show win0_6.index (pointOf i) (3 : Fin 4) * 64 ≤ (i 3).val ∧ (i 3).val < win0_6.index (pointOf i) (3 : Fin 4) * 64 + 64; omega

/-- THE COVER: every index of the result is in the block of a point that writes its block back. -/
theorem cover6 (i : S16x12x577x64.Idx) :
    ∃ t : Fin cfg0.N, (cfg0.win 6).flush t = true ∧ i ∈ ((cfg0.win 6).blk t).view.set :=
  ⟨pointOf i, Gen.flush0_6 _, mem_blk6_pointOf i⟩

/-- The batch and the head of a result index, seen from its point: the block's entry `(0, (i 1) % 4, i 2, i 3)` is `i`. -/
theorem emb6_pointOf (i : S16x12x577x64.Idx) :
    ((cfg0.win 6).blk (pointOf i)).view.emb
        (ix4 (0 : Fin 1) (⟨(i 1).val % 4, Nat.mod_lt _ (by decide)⟩ : Fin 4) (⟨(i 2).val, (i 2).isLt⟩ : Fin 577)
          (⟨(i 3).val, (i 3).isLt⟩ : Fin 64)) = i := by
  rw [emb6]
  have h0 : (i 0).val < 16 := (i 0).isLt
  have h1 : (i 1).val < 12 := (i 1).isLt
  funext a; apply Fin.ext
  match a with
  | ⟨0, _⟩ => show (3 * (i 0).val + (i 1).val / 4) / 3 = (i 0).val; omega
  | ⟨1, _⟩ => show 4 * ((3 * (i 0).val + (i 1).val / 4) % 3) + (i 1).val % 4 = (i 1).val; omega
  | ⟨2, _⟩ => rfl
  | ⟨3, _⟩ => rfl

end Cert.KernelIdeal.Blocks

end
-- ==== Proof.IdealPoints.lean ====
/-
  The scratch and the output block at every grid point, over the extended reals, in terms of the argument arrays.
  Point t works on batch t / 3. The position and embedding blocks of a point depend on its batch only, so the penalty
  matrix a first head block stores in the scratch is the batch's, and the two later head blocks of the batch find it
  there unchanged: by induction on the point, the scratch after point t holds batch (t / 3)'s penalty matrix. The output
  block after point t is then, slab by slab, the heads' attention outputs over that matrix.
-/
import proofs.«156862_j47253230191316_2_alg».proof.Proof.IdealBlockValue
import proofs.«156862_j47253230191316_2_alg».proof.Proof.IdealBlocks

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayloadValue Cert.KernelIdeal.Blocks

variable (m : (ℓ : Loc nD τ sig) → Buf (Elt Ideal) ℓ)

/-- Batch b's penalty matrix from the position and embedding arrays. -/
def penB (c : Dev nD) (b : Fin 16) : Vec Ideal S577x577 .f32 := fun y =>
  Cert.Attn.penalty (Cert.Attn.pos (m ((c : Thread nD τ).loc main_arg4)) b 0) (Cert.Attn.pos (m ((c : Thread nD τ).loc main_arg4)) b 1)
    (fun n j => m ((c : Thread nD τ).loc main_arg5) (ix3 b n j)) (y 0) (y 1)

/-- The penalty matrix computed from a point's position and embedding blocks is its batch's. -/
theorem penBlk_iblk (c : Dev nD) (t : Fin cfg0.N) :
    penBlk (iblk m c 3 t) (iblk m c 4 t) = penB m c (batchOf t) := by
  funext y
  obtain ⟨n, n', rfl⟩ : ∃ (n n' : Fin 577), y = ix2 n n' := ⟨y 0, y 1, eq_ix2 y⟩
  unfold penBlk penB
  rw [penalty_apply]
  have e0 : (fun n : Fin 577 => iblk m c 3 t (ix3 0 n 0)) = Cert.Attn.pos (m ((c : Thread nD τ).loc main_arg4)) (batchOf t) 0 :=
    funext fun n => iblk3_apply m c t n 0
  have e1 : (fun n : Fin 577 => iblk m c 3 t (ix3 0 n 1)) = Cert.Attn.pos (m ((c : Thread nD τ).loc main_arg4)) (batchOf t) 1 :=
    funext fun n => iblk3_apply m c t n 1
  have e2 : (fun (n : Fin 577) (j : Fin 768) => iblk m c 4 t (ix3 0 n j)) = fun n j => m ((c : Thread nD τ).loc main_arg5) (ix3 (batchOf t) n j) :=
    funext fun n => funext fun j => iblk4_apply m c t n j
  rw [e0, e1, e2]

theorem batchOf_pred (n : ℕ) (hn : n + 1 < cfg0.N) (h0 : ¬(n + 1) % 3 = 0) :
    batchOf ⟨n, Nat.lt_of_succ_lt hn⟩ = batchOf ⟨n + 1, hn⟩ := by
  apply Fin.ext
  show n / 3 = (n + 1) / 3
  omega

/-- After point n the scratch holds batch (n / 3)'s penalty matrix. -/
theorem scratch_at (c : Dev nD) : ∀ (n : ℕ) (hn : n < cfg0.N), (outsAt0 (F := Ideal) m c n hn).2 = penB m c (batchOf ⟨n, hn⟩)
  | 0, hn => by
    rw [show outsAt0 (F := Ideal) m c 0 hn = outsAt0 m c (⟨0, hn⟩ : Fin cfg0.N).val (⟨0, hn⟩ : Fin cfg0.N).isLt from rfl,
      outsAt0_A m c ⟨0, hn⟩ (Nat.zero_mod _)]
    dsimp only
    rw [sout_A, penBlk_iblk]
  | n + 1, hn => by
    by_cases h0 : (n + 1) % 3 = 0
    · rw [show outsAt0 (F := Ideal) m c (n + 1) hn = outsAt0 m c (⟨n + 1, hn⟩ : Fin cfg0.N).val (⟨n + 1, hn⟩ : Fin cfg0.N).isLt from rfl,
        outsAt0_A m c ⟨n + 1, hn⟩ h0]
      dsimp only
      rw [sout_A, penBlk_iblk]
    · rw [show outsAt0 (F := Ideal) m c (n + 1) hn = outsAt0 m c (⟨n + 1, hn⟩ : Fin cfg0.N).val (⟨n + 1, hn⟩ : Fin cfg0.N).isLt from rfl,
        outsAt0_B m c ⟨n + 1, hn⟩ h0]
      dsimp only
      rw [show outsAt0 (F := Ideal) m c (n + 1 - 1) (Nat.lt_of_le_of_lt (Nat.sub_le _ _) hn) = outsAt0 m c n (Nat.lt_of_succ_lt hn) from rfl,
        scratch_at c n (Nat.lt_of_succ_lt hn), batchOf_pred n hn h0]

/-- After point t the output block is, slab by slab, the heads' attention outputs over the batch's penalty matrix. -/
theorem block_at (c : Dev nD) (t : Fin cfg0.N) :
    (outsAt0 (F := Ideal) m c t.val t.isLt).1
      = headBlk (penB m c (batchOf t)) (iblk m c 5 t) (iblk m c 0 t) (iblk m c 1 t) (iblk m c 2 t) := by
  by_cases h0 : t.val % 3 = 0
  · rw [outsAt0_A m c t h0]
    dsimp only
    rw [out_A, penBlk_iblk]
  · rw [outsAt0_B m c t h0]
    dsimp only
    rw [out_B]
    obtain ⟨n, hn⟩ := t
    cases n with
    | zero => exact absurd (Nat.zero_mod _) h0
    | succ n =>
      rw [show outsAt0 (F := Ideal) m c (n + 1 - 1) (Nat.lt_of_le_of_lt (Nat.sub_le _ _) hn) = outsAt0 m c n (Nat.lt_of_succ_lt hn) from rfl,
        scratch_at m c n (Nat.lt_of_succ_lt hn), batchOf_pred n hn h0]

end Cert.KernelIdeal.Body

end
-- ==== Proof.IdealArray.lean ====
/-
  From the output block at each grid point to the whole result array, and the idealized kernel's run.

  After point `t` the output block holds, at `(0, k, n, d)`, head `k`'s attention output at `(n, d)` computed from the
  batch's penalty matrix, the mask block and slab `k` of the query, key and value blocks. Read through the blocks'
  positions in their arrays this is the specification's `Cert.Attn.G` of the six argument arrays at the block entry's
  place in the result, `(t / 3, 4 · (t % 3) + k, n, d)`. The 48 blocks tile the result, so after the run the result
  array is `G` of the arguments, and the arguments are as launched.
-/
import proofs.«156862_j47253230191316_2_alg».proof.Proof.IdealPoints
import proofs.«156862_j47253230191316_2_alg».proof.Proof.IdealBlocks
import proofs.«156862_j47253230191316_2_alg».proof.Proof.Spec

set_option maxRecDepth 16384

noncomputable section

namespace Cert.KernelIdeal.Body

open Cert.KernelIdeal Cert.KernelIdeal.Gen Cert.KernelIdeal.Blocks
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The specification's result, of the six argument arrays as launched on core `c`. -/
abbrev Garr (c : Dev nD) : S16x12x577x64.Idx → EReal :=
  Cert.Attn.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- THE OUTPUT BLOCK IS A BLOCK OF `G`: what point `t` leaves at entry `y` of the output block is the specification's
    result at the entry's place in the result array. -/
theorem headBlk_eq_G (c : Dev nD) (t : Fin cfg0.N) (y : S1x4x577x64.Idx) :
    headBlk (penB m c (batchOf t)) (Gen.iblk m c 5 t) (Gen.iblk m c 0 t) (Gen.iblk m c 1 t) (Gen.iblk m c 2 t) y
      = Garr m c (((cfg0.win 6).blk t).view.emb y) := by
  obtain ⟨u, k, n, d, rfl⟩ : ∃ (u : Fin 1) (k : Fin 4) (n : Fin 577) (d : Fin 64), y = ix4 u k n d :=
    ⟨y 0, y 1, y 2, y 3, eq_ix4 y⟩
  rw [emb6]
  have e5 : (fun (n n' : Fin 577) => IntOp.cmpi .ne (Gen.iblk m c 5 t (ix3 0 n n')) 0#32)
      = fun n n' => m ((c : Thread nD τ).loc main_arg3) (ix4 (batchOf t) 0 n n') :=
    funext fun n => funext fun n' => iblk5_apply m c t n n'
  have e0 : (fun (n : Fin 577) (d : Fin 64) => Gen.iblk m c 0 t (ix4 0 k n d))
      = fun n d => m ((c : Thread nD τ).loc main_arg0) (ix4 (batchOf t) (headOf t k) n d) :=
    funext fun n => funext fun d => iblk0_apply m c t k n d
  have e1 : (fun (n : Fin 577) (d : Fin 64) => Gen.iblk m c 1 t (ix4 0 k n d))
      = fun n d => m ((c : Thread nD τ).loc main_arg1) (ix4 (batchOf t) (headOf t k) n d) :=
    funext fun n => funext fun d => iblk1_apply m c t k n d
  have e2 : (fun (n : Fin 577) (d : Fin 64) => Gen.iblk m c 2 t (ix4 0 k n d))
      = fun n d => m ((c : Thread nD τ).loc main_arg2) (ix4 (batchOf t) (headOf t k) n d) :=
    funext fun n => funext fun d => iblk2_apply m c t k n d
  show Cert.Attn.head (Cert.Attn.logit (fun (n n' : Fin 577) => IntOp.cmpi .ne (Gen.iblk m c 5 t (ix3 0 n n')) 0#32)
      (fun (n : Fin 577) (d : Fin 64) => Gen.iblk m c 0 t (ix4 0 k n d))
      (fun (n : Fin 577) (d : Fin 64) => Gen.iblk m c 1 t (ix4 0 k n d))
      (fun (n n' : Fin 577) => penB m c (batchOf t) (ix2 n n')))
      (fun (n : Fin 577) (d : Fin 64) => Gen.iblk m c 2 t (ix4 0 k n d)) n d = _
  rw [e5, e0, e1, e2]
  rfl

/-- WHAT POINT `t` WRITES BACK is block `t` of `G` of the argument arrays. -/
theorem flushed_eq (c : Dev nD) (t : Fin cfg0.N) :
    (dats (F := Ideal) m 0 c).flushed 6 t = ((cfg0.win 6).blk t).view.read (Elt Ideal) (Garr m c) := by
  show (cfg0.win 6).cut (grid0.coords t) ((dats (F := Ideal) m 0 c).after 6 t) = _
  rw [after0_6, block_at]
  funext y
  exact headBlk_eq_G m c t y

/-- THE RESULT ARRAY after the run is `G` of the argument arrays: every point writes its block back, and the blocks
    cover the array. -/
theorem final (c : Dev nD) : (dats (F := Ideal) m 0 c).arrAt 6 cfg0.N = Garr m c :=
  (dats (F := Ideal) m 0 c).arrAt_eq_of_cover 6 (Garr m c) (fun t _ => flushed_eq m c t) cover6

/-- THE KERNEL'S RUN at the extended reals: every weakly fair execution terminates, with the result array at `G` of
    the argument arrays and the six arguments unchanged. -/
theorem kernel_run : θ_run defs (onTc (τ := τ) (main (F := Ideal))) ⟨m, fun _ => 0, ρ⟩ (fun r => ∀ c : Dev nD,
      r.2.mem ((c.tc : Thread nD τ).loc main_v3) = Garr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c)))⟩)
    (run_main m ρ)

end Cert.KernelIdeal.Body

end
-- ==== Proof.LibScatterWindow.lean ====
/-
  A scatter read at an index.

  `Host.scatter d f x idx upd` is the left fold, over the update indices in row-major order, of the step
  "replace the element at the update's result index by `f` of it and the update's element". When the update indices
  landing on a given element are at most one, the fold is read at that element directly:
  the element is untouched if no update lands on it, and is `f` of the operand's element and the one update's
  element if exactly one does.
-/
import Idealize.ShloMosaic.PureOps
import Idealize.ShloMosaic.Lib.ValueIdx

namespace Idealize.ShloMosaic.ScatterWindow

variable {ι κ α : Type} [DecidableEq κ]

/-- One step of the fold: the update `n` lands at `g n` (or nowhere). -/
def step (g : ι → Option κ) (f : α → α → α) (u : ι → α) (r : κ → α) (n : ι) : κ → α :=
  match g n with
  | some i => fun i' => if i' = i then f (r i) (u n) else r i'
  | none => r

theorem step_of_ne (g : ι → Option κ) (f : α → α → α) (u : ι → α) (r : κ → α) (n : ι) (i : κ)
    (h : g n ≠ some i) : step g f u r n i = r i := by
  unfold step
  cases hg : g n with
  | none => rfl
  | some i' =>
    have : i ≠ i' := fun e => h (by rw [hg, e])
    simp only [if_neg this]

theorem step_of_eq (g : ι → Option κ) (f : α → α → α) (u : ι → α) (r : κ → α) (n : ι) (i : κ)
    (h : g n = some i) : step g f u r n i = f (r i) (u n) := by
  unfold step
  rw [h]
  exact if_pos rfl

/-- No update of the list lands on `i`: the fold leaves the element. -/
theorem foldl_miss (g : ι → Option κ) (f : α → α → α) (u : ι → α) (i : κ) :
    ∀ (L : List ι) (x : κ → α), (∀ n ∈ L, g n ≠ some i) → L.foldl (step g f u) x i = x i
  | [], _, _ => rfl
  | a :: L, x, h => by
    rw [List.foldl_cons, foldl_miss g f u i L _ (fun n hn => h n (List.mem_cons_of_mem _ hn))]
    exact step_of_ne g f u x a i (h a List.mem_cons_self)

/-- Exactly one update of a list without repeats lands on `i`: the fold applies `f` once. -/
theorem foldl_hit (g : ι → Option κ) (f : α → α → α) (u : ι → α) (i : κ) (n₀ : ι) (h₀ : g n₀ = some i) :
    ∀ (L : List ι) (x : κ → α), L.Nodup → n₀ ∈ L → (∀ n ∈ L, g n = some i → n = n₀) →
      L.foldl (step g f u) x i = f (x i) (u n₀)
  | [], _, _, hm, _ => absurd hm List.not_mem_nil
  | a :: L, x, hnd, hm, huniq => by
    rw [List.foldl_cons]
    have hnd' := List.nodup_cons.1 hnd
    by_cases ha : a = n₀
    · subst ha
      rw [foldl_miss g f u i L _ (fun n hn hg => hnd'.1 (by
        have := huniq n (List.mem_cons_of_mem _ hn) hg; rw [← this]; exact hn))]
      exact step_of_eq g f u x a i h₀
    · have hm' : n₀ ∈ L := by
        rcases List.mem_cons.1 hm with e | e
        · exact absurd e.symm ha
        · exact e
      rw [foldl_hit g f u i n₀ h₀ L _ hnd'.2 hm' (fun n hn => huniq n (List.mem_cons_of_mem _ hn))]
      rw [step_of_ne g f u x a i (fun hg => ha (huniq a List.mem_cons_self hg))]

end Idealize.ShloMosaic.ScatterWindow

namespace Idealize.ShloMosaic

variable {α : Type} {s si u : Shape} {w : Nat}

theorem Host.scatter_eq_foldl (d : ScatterDims s si u) (f : α → α → α) (x : s.Idx → α) (idx : IVec si w)
    (upd : u.Idx → α) :
    Host.scatter d f x idx upd
      = (List.finRange u.numel).foldl (ScatterWindow.step (fun n => d.resultIdx? (u.rowMajor.symm n) idx) f
          (fun n => upd (u.rowMajor.symm n))) x := by
  unfold Host.scatter
  refine congrArg (fun st => List.foldl st x (List.finRange u.numel)) (funext fun r => funext fun n => ?_)
  unfold ScatterWindow.step
  dsimp only
  generalize d.resultIdx? (u.rowMajor.symm n) idx = o
  cases o with
  | none => rfl
  | some i =>
    funext i'
    show (if i' = i then _ else _) = (if i' = i then _ else _)
    by_cases e : i' = i
    · first | rfl | rw [if_pos e, if_pos e]
    · first | rfl | rw [if_neg e, if_neg e]

/-- No update index lands on `i`: the scatter leaves the operand's element. -/
theorem Host.scatter_apply_of_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [Host.scatter_eq_foldl]
  exact ScatterWindow.foldl_miss _ f _ i _ x (fun n _ => h _)

/-- Exactly one update index `j₀` lands on `i`: the scatter's element is `f` of the operand's and that update's. -/
theorem Host.scatter_apply_of_unique (d : ScatterDims s si u) (f : α → α → α) (x : s.Idx → α) (idx : IVec si w)
    (upd : u.Idx → α) (i : s.Idx) (j₀ : u.Idx) (h₀ : d.resultIdx? j₀ idx = some i)
    (huniq : ∀ j : u.Idx, d.resultIdx? j idx = some i → j = j₀) :
    Host.scatter d f x idx upd i = f (x i) (upd j₀) := by
  rw [Host.scatter_eq_foldl]
  have e : u.rowMajor.symm (u.rowMajor j₀) = j₀ := u.rowMajor.symm_apply_apply j₀
  have := ScatterWindow.foldl_hit (fun n => d.resultIdx? (u.rowMajor.symm n) idx) f
    (fun n => upd (u.rowMajor.symm n)) i (u.rowMajor j₀) (by show d.resultIdx? (u.rowMajor.symm (u.rowMajor j₀)) idx = some i; rw [e]; exact h₀)
    (List.finRange u.numel) x (List.nodup_finRange _) (List.mem_finRange _)
    (fun n _ hn => by
      have := huniq _ hn
      rw [← this]; exact (u.rowMajor.apply_symm_apply n).symm)
  rw [this]
  show f (x i) (upd (u.rowMajor.symm (u.rowMajor j₀))) = _
  rw [e]

end Idealize.ShloMosaic

/-! ## One whole window added one step in from the corner

The operand is [16, 12, 577, 577], the update [16, 12, 576, 576], every update axis a window axis, and the one start
index (read off a two-element index vector for axes 2 and 3) is (1, 1): update element (b, h, n, m) lands on operand
element (b, h, n + 1, m + 1), always inside. So row 0 and column 0 of the last two axes are untouched, and every other
element meets exactly one update. -/

namespace Idealize.ShloMosaic.ScatterWindow

open Idealize.ShloMosaic.ValueIdx

abbrev SOp : Shape := ⟨4, ![16, 12, 577, 577]⟩
abbrev SIx : Shape := ⟨1, ![2]⟩
abbrev SUp : Shape := ⟨4, ![16, 12, 576, 576]⟩

/-- The dimension numbers: window axes all four, nothing inserted, the index vector's two components go to axes 2 and 3. -/
abbrev cornerDims (hw : ScatterDims.WF SOp SIx SUp [0, 1, 2, 3] [] [2, 3] 0) : ScatterDims SOp SIx SUp :=
  ⟨[0, 1, 2, 3], [], [2, 3], 0, hw⟩

variable (hw : ScatterDims.WF SOp SIx SUp [0, 1, 2, 3] [] [2, 3] 0) {w : Nat}

theorem window_0 (b : Fin 16) (h : Fin 12) (n m : Fin 576) : (cornerDims hw).window (ix4 b h n m) 0 = b.val := by
  unfold ScatterDims.window
  rw [dif_pos (show (0 : Fin SOp.rank) ∈ (cornerDims hw).sKept by decide +revert)]
  rfl
theorem window_1 (b : Fin 16) (h : Fin 12) (n m : Fin 576) : (cornerDims hw).window (ix4 b h n m) 1 = h.val := by
  unfold ScatterDims.window
  rw [dif_pos (show (1 : Fin SOp.rank) ∈ (cornerDims hw).sKept by decide +revert)]
  rfl
theorem window_2 (b : Fin 16) (h : Fin 12) (n m : Fin 576) : (cornerDims hw).window (ix4 b h n m) 2 = n.val := by
  unfold ScatterDims.window
  rw [dif_pos (show (2 : Fin SOp.rank) ∈ (cornerDims hw).sKept by decide +revert)]
  rfl
theorem window_3 (b : Fin 16) (h : Fin 12) (n m : Fin 576) : (cornerDims hw).window (ix4 b h n m) 3 = m.val := by
  unfold ScatterDims.window
  rw [dif_pos (show (3 : Fin SOp.rank) ∈ (cornerDims hw).sKept by decide +revert)]
  rfl

theorem start_0 (j : SUp.Idx) (idx : IVec SIx 32) : (cornerDims hw).start j idx 0 = 0 := by
  unfold ScatterDims.start
  rw [dif_neg (show ¬ (0 : Fin SOp.rank) ∈ (cornerDims hw).scatterDimsToOperandDims by decide +revert)]
theorem start_1 (j : SUp.Idx) (idx : IVec SIx 32) : (cornerDims hw).start j idx 1 = 0 := by
  unfold ScatterDims.start
  rw [dif_neg (show ¬ (1 : Fin SOp.rank) ∈ (cornerDims hw).scatterDimsToOperandDims by decide +revert)]
theorem start_2 (j : SUp.Idx) (idx : IVec SIx 32) (hidx : ∀ k, idx k = 1#32) : (cornerDims hw).start j idx 2 = 1 := by
  unfold ScatterDims.start
  rw [dif_pos (show (2 : Fin SOp.rank) ∈ (cornerDims hw).scatterDimsToOperandDims by decide +revert), hidx]
  rfl
theorem start_3 (j : SUp.Idx) (idx : IVec SIx 32) (hidx : ∀ k, idx k = 1#32) : (cornerDims hw).start j idx 3 = 1 := by
  unfold ScatterDims.start
  rw [dif_pos (show (3 : Fin SOp.rank) ∈ (cornerDims hw).scatterDimsToOperandDims by decide +revert), hidx]
  rfl

/-- Where update element (b, h, n, m) lands. -/
theorem resultIdx_corner (idx : IVec SIx 32) (hidx : ∀ k, idx k = 1#32) (b : Fin 16) (h : Fin 12) (n m : Fin 576) :
    (cornerDims hw).resultIdx? (ix4 b h n m) idx
      = some (ix4 b h (⟨n.val + 1, by omega⟩ : Fin 577) (⟨m.val + 1, by omega⟩ : Fin 577)) := by
  have H : ∀ a, 0 ≤ (cornerDims hw).start (ix4 b h n m) idx a + (cornerDims hw).window (ix4 b h n m) a
      ∧ (cornerDims hw).start (ix4 b h n m) idx a + (cornerDims hw).window (ix4 b h n m) a < SOp.size a := fun a => by
    match a with
    | ⟨0, _⟩ => rw [show (⟨0, _⟩ : Fin SOp.rank) = 0 from rfl, start_0, window_0]; show _ ∧ _ < ((16 : Nat) : Int); omega
    | ⟨1, _⟩ => rw [show (⟨1, _⟩ : Fin SOp.rank) = 1 from rfl, start_1, window_1]; show _ ∧ _ < ((12 : Nat) : Int); omega
    | ⟨2, _⟩ => rw [show (⟨2, _⟩ : Fin SOp.rank) = 2 from rfl, start_2 hw _ _ hidx, window_2]; show _ ∧ _ < ((577 : Nat) : Int); omega
    | ⟨3, _⟩ => rw [show (⟨3, _⟩ : Fin SOp.rank) = 3 from rfl, start_3 hw _ _ hidx, window_3]; show _ ∧ _ < ((577 : Nat) : Int); omega
  unfold ScatterDims.resultIdx?
  rw [dif_pos H]
  refine congrArg some (funext fun a => Fin.ext ?_)
  match a with
  | ⟨0, _⟩ =>
    show ((cornerDims hw).start (ix4 b h n m) idx 0 + (cornerDims hw).window (ix4 b h n m) 0).toNat = b.val
    rw [start_0, window_0]; omega
  | ⟨1, _⟩ =>
    show ((cornerDims hw).start (ix4 b h n m) idx 1 + (cornerDims hw).window (ix4 b h n m) 1).toNat = h.val
    rw [start_1, window_1]; omega
  | ⟨2, _⟩ =>
    show ((cornerDims hw).start (ix4 b h n m) idx 2 + (cornerDims hw).window (ix4 b h n m) 2).toNat = n.val + 1
    rw [start_2 hw _ _ hidx, window_2]; omega
  | ⟨3, _⟩ =>
    show ((cornerDims hw).start (ix4 b h n m) idx 3 + (cornerDims hw).window (ix4 b h n m) 3).toNat = m.val + 1
    rw [start_3 hw _ _ hidx, window_3]; omega

/-- Away from row 0 and column 0 the element is `f` of the operand's and the update's one step back. -/
theorem scatter_corner_interior {α : Type} (f : α → α → α) (x : SOp.Idx → α) (idx : IVec SIx 32) (hidx : ∀ k, idx k = 1#32)
    (upd : SUp.Idx → α) (b : Fin 16) (h : Fin 12) (n m : Fin 576) :
    Host.scatter (cornerDims hw) f x idx upd (ix4 b h (⟨n.val + 1, by omega⟩ : Fin 577) (⟨m.val + 1, by omega⟩ : Fin 577))
      = f (x (ix4 b h (⟨n.val + 1, by omega⟩ : Fin 577) (⟨m.val + 1, by omega⟩ : Fin 577))) (upd (ix4 b h n m)) := by
  refine Host.scatter_apply_of_unique _ f x idx upd _ (ix4 b h n m) (resultIdx_corner hw idx hidx b h n m) (fun j hj => ?_)
  obtain ⟨b', h', n', m', rfl⟩ : ∃ (b' : Fin 16) (h' : Fin 12) (n' m' : Fin 576), j = ix4 b' h' n' m' :=
    ⟨j 0, j 1, j 2, j 3, eq_ix4 j⟩
  rw [resultIdx_corner hw idx hidx] at hj
  have e := Option.some.inj hj
  have e0 : b' = b := congrFun e 0
  have e1 : h' = h := congrFun e 1
  have e2 : (⟨n'.val + 1, by omega⟩ : Fin 577) = ⟨n.val + 1, by omega⟩ := congrFun e 2
  have e3 : (⟨m'.val + 1, by omega⟩ : Fin 577) = ⟨m.val + 1, by omega⟩ := congrFun e 3
  have e2' : n' = n := Fin.ext (by have := congrArg Fin.val e2; simp only at this; omega)
  have e3' : m' = m := Fin.ext (by have := congrArg Fin.val e3; simp only at this; omega)
  rw [e0, e1, e2', e3']

/-- On row 0 or column 0 the operand's element is left. -/
theorem scatter_corner_border {α : Type} (f : α → α → α) (x : SOp.Idx → α) (idx : IVec SIx 32) (hidx : ∀ k, idx k = 1#32)
    (upd : SUp.Idx → α) (b : Fin 16) (h : Fin 12) (n m : Fin 577) (hz : n.val = 0 ∨ m.val = 0) :
    Host.scatter (cornerDims hw) f x idx upd (ix4 b h n m) = x (ix4 b h n m) := by
  refine Host.scatter_apply_of_miss _ f x idx upd _ (fun j hj => ?_)
  obtain ⟨b', h', n', m', rfl⟩ : ∃ (b' : Fin 16) (h' : Fin 12) (n' m' : Fin 576), j = ix4 b' h' n' m' :=
    ⟨j 0, j 1, j 2, j 3, eq_ix4 j⟩
  rw [resultIdx_corner hw idx hidx] at hj
  have e := Option.some.inj hj
  have e2 : (⟨n'.val + 1, by omega⟩ : Fin 577) = n := congrFun e 2
  have e3 : (⟨m'.val + 1, by omega⟩ : Fin 577) = m := congrFun e 3
  have v2 := congrArg Fin.val e2
  have v3 := congrArg Fin.val e3
  simp only at v2 v3
  omega

end Idealize.ShloMosaic.ScatterWindow
-- ==== Proof.RefValue.lean ====
/-
  The reference program computes the specification's function of its six arguments.

  The program is read stage by stage at explicit coordinates (batch b, head h, tokens n and m, channels d and k):

    * the pairwise distance of patch positions and the cosine similarity of the unit-length patch embeddings give the
      raw penalty between patches i and j, which are tokens i + 1 and j + 1 (the slice of the embeddings drops the class row);
    * the scaled products of queries and keys have the negated penalty added on the block of rows and columns 1 … 576
      (one window, one step in from the corner), so away from the class row and column the entry is the score less the
      penalty (a + (−p) = a − p) and on them it is the score itself (a = a − 0);
    * the mask selects the entry or the finite stand-in;
    * the row maximum from −∞ (taken once more against −∞, which changes nothing), the exponentials, their row sum from 0,
      the quotient, and the product with the values are the softmax and the head's output.

  No law used needs a finite operand.
-/
import proofs.«156862_j47253230191316_2_alg».proof.Proof.RefRead
import proofs.«156862_j47253230191316_2_alg».proof.Proof.Spec
import proofs.«156862_j47253230191316_2_alg».proof.Proof.LibScatterWindow

noncomputable section

namespace Cert.ReferenceIdeal.RefValue

open Cert.ReferenceIdeal Cert.ReferenceIdeal.Gen Cert.ReferenceIdeal.ReadP Idealize.ShloMosaic Idealize.ShloMosaic.ValueIdx

/-! ## Constants -/

/-- The word of 8.0 denotes 8. -/
theorem ofBits_eight : Ideal.ofBits .f32 0x41000000#32 = ((8 : ℝ) : EReal) := by
  simp [Ideal.ofBits, Ideal.ieee, -EReal.coe_mul]; norm_num

/-- The word of 0.125 denotes 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, for every extended real. -/
theorem div_eight (x : EReal) : Ideal.div x (Ideal.ofBits .f32 0x41000000#32) = x * Attn.eighth := by
  unfold Attn.eighth
  rw [ofBits_eight, ofBits_eighth, Ideal.div_coe (by norm_num)]

/-- −∞ is neutral for the maximum. -/
theorem max_negInf (y : EReal) : max (Ideal.ofBits .f32 0xFF800000#32) y = y := by
  simp [Ideal.ofBits, Ideal.ieee]

/-- Token i + 1, the token of patch i. -/
abbrev tok (i : Fin 576) : Fin 577 := ⟨i.val + 1, by omega⟩

/-- A token that is not the class token is the token of a patch. -/
theorem exists_tok (n : Fin 577) (h : 0 < n.val) : ∃ i : Fin 576, n = tok i :=
  ⟨⟨n.val - 1, by omega⟩, Fin.ext (by show n.val = n.val - 1 + 1; omega)⟩

/-- The position of a patch's token is the patch's. -/
theorem pos_tok (P : FVec Ideal S16x576x2 .f32) (b : Fin 16) (c : Fin 2) (i : Fin 576) :
    Attn.pos P b c (tok i) = P (ix3 b i c) := by
  unfold Attn.pos
  rw [dif_pos (show 0 < (tok i).val by show 0 < i.val + 1; omega)]
  exact congrArg P (funext fun a => Fin.ext (by
    match a with
    | ⟨0, _⟩ => rfl
    | ⟨1, _⟩ => show i.val + 1 - 1 = i.val; omega
    | ⟨2, _⟩ => rfl))

/-! ## The distance of two patches -/

section Penalty

variable (P : FVec Ideal S16x576x2 .f32) (E : FVec Ideal S16x577x768 .f32)

theorem v8_at (b : Fin 16) (i j : Fin 576) (k : Fin 2) :
    val_main_v8 (F := Ideal) P (ix4 b i j k) = P (ix3 b i k) - P (ix3 b j k) := by
  rw [val_main_v8_apply, val_main_v6_apply, val_main_v7_apply, val_main_v4_apply, val_main_v5_apply]
  have e1 : idx_main_v4 (idx_main_v6 (ix4 b i j k)) = ix3 b i k :=
    funext fun a => Fin.ext (by match a with | ⟨0, _⟩ => rfl | ⟨1, _⟩ => rfl | ⟨2, _⟩ => rfl)
  have e2 : idx_main_v5 (idx_main_v7 (ix4 b i j k)) = ix3 b j k :=
    funext fun a => Fin.ext (by match a with | ⟨0, _⟩ => rfl | ⟨1, _⟩ => rfl | ⟨2, _⟩ => rfl)
  rw [e1, e2]
  rfl

theorem v10_at (b : Fin 16) (i j : Fin 576) :
    val_main_v10 (F := Ideal) P (ix3 b i j)
      = (P (ix3 b i 0) - P (ix3 b j 0)) * (P (ix3 b i 0) - P (ix3 b j 0))
        + (P (ix3 b i 1) - P (ix3 b j 1)) * (P (ix3 b i 1) - P (ix3 b j 1)) := by
  rw [val_main_v10_apply, Fin.sum_univ_two, val_main_cst_0_apply, Ideal.ofBits_def, Ideal.ofBits_zero_f32, zero_add]
  have e : ∀ k : Fin 2, idx_main_v10 (ix3 b i j) k = ix4 b i j k := fun k =>
    funext fun a => Fin.ext (by match a with | ⟨0, _⟩ => rfl | ⟨1, _⟩ => rfl | ⟨2, _⟩ => rfl | ⟨3, _⟩ => rfl)
  rw [e 0, e 1, val_main_v9_apply, val_main_v9_apply, v8_at, v8_at]
  rfl

theorem v15_at (b : Fin 16) (i j : Fin 576) :
    val_main_v15 (F := Ideal) P (ix3 b i j) = Attn.dist (Attn.pos P b 0) (Attn.pos P b 1) (tok i) (tok j) := by
  rw [val_main_v15_apply, val_main_v13_apply, val_main_v12_apply, v10_at, val_main_v11_apply, val_main_cst_1_apply,
    val_main_v14_apply, val_main_cst_2_apply]
  unfold Attn.dist
  rw [pos_tok, pos_tok, pos_tok, pos_tok]
  rfl

/-! ## The cosine similarity of two patches' embeddings -/

theorem v3_at (b : Fin 16) (i : Fin 576) (k : Fin 768) :
    val_main_v3 (F := Ideal) E (ix3 b i k) = E (ix3 b (tok i) k) := by
  rw [val_main_v3_apply]
  exact congrArg E (funext fun a => Fin.ext (by
    match a with
    | ⟨0, _⟩ => rfl
    | ⟨1, _⟩ => show 1 + i.val = i.val + 1; omega
    | ⟨2, _⟩ => rfl))

theorem call0_v1_at (b : Fin 16) (i : Fin 576) :
    val_main_call0_v1 (F := Ideal) E (ix2 b i) = ∑ k : Fin 768, E (ix3 b (tok i) k) * E (ix3 b (tok i) k) := by
  rw [val_main_call0_v1_apply, val_main_call0_cst_apply, Ideal.ofBits_def, Ideal.ofBits_zero_f32, zero_add]
  refine Finset.sum_congr rfl fun k _ => ?_
  have e : idx_main_call0_v1 (ix2 b i) k = ix3 b i k :=
    funext fun a => Fin.ext (by match a with | ⟨0, _⟩ => rfl | ⟨1, _⟩ => rfl | ⟨2, _⟩ => rfl)
  rw [e, val_main_call0_v0_apply, v3_at]
  rfl

theorem v18_at (b : Fin 16) (i : Fin 576) (z : Fin 1) :
    val_main_v18 (F := Ideal) E (ix3 b i z)
      = Ideal.sqrt (∑ k : Fin 768, E (ix3 b (tok i) k) * E (ix3 b (tok i) k)) + Attn.eps8 := by
  rw [val_main_v18_apply, val_main_v16_apply, val_main_call0_v2_apply, val_main_v17_apply, val_main_cst_3_apply]
  have e : idx_main_call0_v2 (ix3 b i z) = ix2 b i :=
    funext fun a => Fin.ext (by match a with | ⟨0, _⟩ => rfl | ⟨1, _⟩ => rfl)
  rw [e, call0_v1_at]
  rfl

theorem v20_at (b : Fin 16) (i : Fin 576) (k : Fin 768) :
    val_main_v20 (F := Ideal) E (ix3 b i k) = Attn.unitRow (fun n j => E (ix3 b n j)) (tok i) k := by
  rw [val_main_v20_apply, val_main_v19_apply, v3_at]
  have e : idx_main_v19 (ix3 b i k) = ix3 b i (0 : Fin 1) :=
    funext fun a => Fin.ext (by match a with | ⟨0, _⟩ => rfl | ⟨1, _⟩ => rfl | ⟨2, _⟩ => rfl)
  rw [e, v18_at]
  rfl

theorem v21_at (b : Fin 16) (i j : Fin 576) :
    val_main_v21 (F := Ideal) E (ix3 b i j) = Attn.cosSim (fun n j => E (ix3 b n j)) (tok i) (tok j) := by
  rw [val_main_v21_apply]
  unfold Attn.cosSim
  refine Finset.sum_congr rfl fun k _ => ?_
  have el : lidx_main_v21 (ix3 b i j) k = ix3 b i k :=
    funext fun a => Fin.ext (by match a with | ⟨0, _⟩ => rfl | ⟨1, _⟩ => rfl | ⟨2, _⟩ => rfl)
  have er : ridx_main_v21 (ix3 b i j) k = ix3 b j k :=
    funext fun a => Fin.ext (by match a with | ⟨0, _⟩ => rfl | ⟨1, _⟩ => rfl | ⟨2, _⟩ => rfl)
  rw [el, er, v20_at, v20_at]

/-! ## The raw penalty between two patches, and its negation spread over the heads -/

theorem v26_at (b : Fin 16) (i j : Fin 576) :
    val_main_v26 (F := Ideal) P E (ix3 b i j)
      = Attn.rawPenalty (Attn.pos P b 0) (Attn.pos P b 1) (fun n j => E (ix3 b n j)) (tok i) (tok j) := by
  rw [val_main_v26_apply, val_main_v23_apply, val_main_v25_apply, val_main_v22_apply, val_main_cst_4_apply,
    val_main_v24_apply, val_main_cst_5_apply, v15_at, v21_at]
  rfl

theorem v32_at (b : Fin 16) (h : Fin 12) (i j : Fin 576) :
    val_main_v32 (F := Ideal) P E (ix4 b h i j)
      = -Attn.rawPenalty (Attn.pos P b 0) (Attn.pos P b 1) (fun n j => E (ix3 b n j)) (tok i) (tok j) := by
  rw [val_main_v32_apply, val_main_v28_apply, val_main_v27_apply]
  have e : idx_main_v27 (idx_main_v32 (ix4 b h i j)) = ix3 b i j :=
    funext fun a => Fin.ext (by match a with | ⟨0, _⟩ => rfl | ⟨1, _⟩ => rfl | ⟨2, _⟩ => rfl)
  rw [e, v26_at]
  rfl

end Penalty

/-! ## The scaled products of queries and keys -/

section Scores

variable (Q K : FVec Ideal S16x12x577x64 .f32)

theorem v1_at (b : Fin 16) (h : Fin 12) (n : Fin 577) (d : Fin 64) :
    val_main_v1 (F := Ideal) Q (ix4 b h n d) = Q (ix4 b h n d) * Attn.eighth := by
  rw [val_main_v1_apply, val_main_v0_apply, val_main_cst_apply, Ideal.hostDivf_def, Ideal.ofBits_def, div_eight]

theorem v2_at (b : Fin 16) (h : Fin 12) (n m : Fin 577) :
    val_main_v2 (F := Ideal) Q K (ix4 b h n m)
      = Attn.score (fun n d => Q (ix4 b h n d)) (fun m d => K (ix4 b h m d)) n m := by
  rw [val_main_v2_apply]
  unfold Attn.score
  refine Finset.sum_congr rfl fun k _ => ?_
  have el : lidx_main_v2 (ix4 b h n m) k = ix4 b h n k :=
    funext fun a => Fin.ext (by match a with | ⟨0, _⟩ => rfl | ⟨1, _⟩ => rfl | ⟨2, _⟩ => rfl | ⟨3, _⟩ => rfl)
  have er : ridx_main_v2 (ix4 b h n m) k = ix4 b h m k :=
    funext fun a => Fin.ext (by match a with | ⟨0, _⟩ => rfl | ⟨1, _⟩ => rfl | ⟨2, _⟩ => rfl | ⟨3, _⟩ => rfl)
  rw [el, er, v1_at]

end Scores

/-! ## The window of negated penalties added one step in from the corner -/

/-- Both components of the start index are 1. -/
theorem v31_at (k : S2.Idx) : val_main_v31 (F := Ideal) k = 1#32 := by
  unfold val_main_v31
  have hlt : (k 0).val < 2 := (k 0).isLt
  by_cases hk : (k 0).val = 0
  · rw [concatenate_pair_apply_left (0 : Fin S2.rank) (val_main_v29 (F := Ideal)) (val_main_v30 (F := Ideal))
      concatenates_S1_S1_S2_d0 k rfl (ix1 (0 : Fin 1)) (fun b => by match b with | ⟨0, _⟩ => exact hk.symm)]
    rw [val_main_v29_apply, val_main_c_apply]
  · rw [concatenate_pair_apply_right (0 : Fin S2.rank) (val_main_v29 (F := Ideal)) (val_main_v30 (F := Ideal))
      concatenates_S1_S1_S2_d0 k rfl rfl (ix1 (0 : Fin 1))
      (fun b hb => by match b with | ⟨0, _⟩ => exact absurd rfl hb)
      (by show 0 + 1 = (k 0).val; omega)]
    rw [val_main_v30_apply, val_main_c_6_apply]

section Logits

variable (Q K : FVec Ideal S16x12x577x64 .f32) (M : IVec S16x1x577x577 1) (P : FVec Ideal S16x576x2 .f32)
  (E : FVec Ideal S16x577x768 .f32)

/-- The scattered logits at (b, h, n, m): the score less the penalty. -/
theorem v33_at (b : Fin 16) (h : Fin 12) (n m : Fin 577) :
    val_main_v33 (F := Ideal) Q K P E (ix4 b h n m)
      = Attn.score (fun n d => Q (ix4 b h n d)) (fun m d => K (ix4 b h m d)) n m
        - Attn.penalty (Attn.pos P b 0) (Attn.pos P b 1) (fun n j => E (ix3 b n j)) n m := by
  unfold val_main_v33 Attn.penalty
  generalize hy2 : val_main_v2 (F := Ideal) Q K = y2
  generalize hy32 : val_main_v32 (F := Ideal) P E = y32
  by_cases hnm : 0 < n.val ∧ 0 < m.val
  · obtain ⟨i, rfl⟩ := exists_tok n hnm.1
    obtain ⟨j, rfl⟩ := exists_tok m hnm.2
    rw [if_pos hnm]
    refine (ScatterWindow.scatter_corner_interior scatter_S16x12x577x577_S2_S16x12x576x576_0123_n_23_0_wf
      (FloatOps.addf (F := Ideal) (φ := .f32)) y2 (val_main_v31 (F := Ideal)) v31_at y32 b h i j).trans ?_
    rw [← hy2, ← hy32, v2_at, v32_at, Ideal.addf_def]
    exact (sub_eq_add_neg _ _).symm
  · rw [if_neg hnm, sub_zero]
    refine (ScatterWindow.scatter_corner_border scatter_S16x12x577x577_S2_S16x12x576x576_0123_n_23_0_wf
      (FloatOps.addf (F := Ideal) (φ := .f32)) y2 (val_main_v31 (F := Ideal)) v31_at y32 b h n m (by omega)).trans ?_
    rw [← hy2, v2_at]

/-- The logits of batch b and head h, as the specification writes them. -/
abbrev lg (b : Fin 16) (h : Fin 12) : Fin 577 → Fin 577 → EReal :=
  Attn.logit (fun n m => M (ix4 b 0 n m)) (fun n d => Q (ix4 b h n d)) (fun m d => K (ix4 b h m d))
    (Attn.penalty (Attn.pos P b 0) (Attn.pos P b 1) (fun n j => E (ix3 b n j)))

theorem v34_at (b : Fin 16) (h : Fin 12) (n m : Fin 577) :
    val_main_v34 (F := Ideal) Q K M P E (ix4 b h n m) = lg Q K M P E b h n m := by
  rw [val_main_v34_apply, val_main_call1_v1_apply, val_main_call1_v2_apply, val_main_call1_v0_apply, val_main_cst_7_apply,
    v33_at]
  have e : idx_main_call1_v1 (ix4 b h n m) = ix4 b (0 : Fin 1) n m :=
    funext fun a => Fin.ext (by match a with | ⟨0, _⟩ => rfl | ⟨1, _⟩ => rfl | ⟨2, _⟩ => rfl | ⟨3, _⟩ => rfl)
  rw [e]
  rfl

/-! ## The softmax over the last axis and the product with the values -/

theorem v35_at (b : Fin 16) (h : Fin 12) (n : Fin 577) :
    val_main_v35 (F := Ideal) Q K M P E (ix3 b h n) = Attn.rowMax (lg Q K M P E b h) n := by
  unfold val_main_v35 Attn.rowMax
  have hf : ∀ m : Fin 577, val_main_v34 (F := Ideal) Q K M P E (ix4 b h n m) = lg Q K M P E b h n m :=
    fun m => v34_at Q K M P E b h n m
  generalize val_main_v34 (F := Ideal) Q K M P E = y at hf ⊢
  refine (Host.reduce_eq_fold_single (FloatOps.maximumf (F := Ideal) (φ := .f32)) y (val_main_cst_8 (F := Ideal))
    reducesTo_S16x12x577x577_S16x12x577_d3 (by decide) h_S_ (ix3 b h n)).trans ?_
  refine congrArg (fun g => Finset.fold max _ g (Finset.univ : Finset (Fin 577))) (funext fun m => ?_)
  refine Eq.trans (congrArg y (funext fun a => Fin.ext ?_)) (hf m)
  match a with
  | ⟨0, _⟩ => rfl
  | ⟨1, _⟩ => rfl
  | ⟨2, _⟩ => rfl
  | ⟨3, _⟩ => rfl

theorem v37_at (b : Fin 16) (h : Fin 12) (n : Fin 577) :
    val_main_v37 (F := Ideal) Q K M P E (ix3 b h n) = Attn.rowMax (lg Q K M P E b h) n := by
  rw [val_main_v37_apply, val_main_v36_apply, val_main_cst_9_apply, v35_at, Ideal.maximumf_def, Ideal.ofBits_def, max_negInf]

theorem v41_at (b : Fin 16) (h : Fin 12) (n m : Fin 577) :
    val_main_v41 (F := Ideal) Q K M P E (ix4 b h n m) = Attn.weight (lg Q K M P E b h) n m := by
  rw [val_main_v41_apply, val_main_v40_apply, val_main_v39_apply, val_main_v38_apply, v34_at]
  have e : idx_main_v38 (idx_main_v39 (ix4 b h n m)) = ix3 b h n :=
    funext fun a => Fin.ext (by match a with | ⟨0, _⟩ => rfl | ⟨1, _⟩ => rfl | ⟨2, _⟩ => rfl)
  rw [e, v37_at]
  rfl

theorem v42_at (b : Fin 16) (h : Fin 12) (n : Fin 577) :
    val_main_v42 (F := Ideal) Q K M P E (ix3 b h n) = ∑ j : Fin 577, Attn.weight (lg Q K M P E b h) n j := by
  rw [val_main_v42_apply, val_main_cst_10_apply, Ideal.ofBits_def, Ideal.ofBits_zero_f32, zero_add]
  refine Finset.sum_congr rfl fun k _ => ?_
  have e : idx_main_v42 (ix3 b h n) k = ix4 b h n k :=
    funext fun a => Fin.ext (by match a with | ⟨0, _⟩ => rfl | ⟨1, _⟩ => rfl | ⟨2, _⟩ => rfl | ⟨3, _⟩ => rfl)
  rw [e, v41_at]

theorem v45_at (b : Fin 16) (h : Fin 12) (n m : Fin 577) :
    val_main_v45 (F := Ideal) Q K M P E (ix4 b h n m) = Attn.attn (lg Q K M P E b h) n m := by
  rw [val_main_v45_apply, val_main_v44_apply, val_main_v43_apply, v41_at]
  have e : idx_main_v43 (idx_main_v44 (ix4 b h n m)) = ix3 b h n :=
    funext fun a => Fin.ext (by match a with | ⟨0, _⟩ => rfl | ⟨1, _⟩ => rfl | ⟨2, _⟩ => rfl)
  rw [e, v42_at]
  rfl

end Logits

/-- The reference's result is the specification's function of the six arguments. -/
theorem ref_eq (Q K V : FVec Ideal S16x12x577x64 .f32) (M : IVec S16x1x577x577 1) (P : FVec Ideal S16x576x2 .f32)
    (E : FVec Ideal S16x577x768 .f32) :
    val_main_v46 (F := Ideal) Q K V M P E = Attn.G Q K V M P E := by
  funext i
  obtain ⟨b, h, n, d, rfl⟩ : ∃ (b : Fin 16) (h : Fin 12) (n : Fin 577) (d : Fin 64), i = ix4 b h n d :=
    ⟨i 0, i 1, i 2, i 3, eq_ix4 i⟩
  rw [val_main_v46_apply]
  show _ = Attn.head (lg Q K M P E b h) (fun m d => V (ix4 b h m d)) n d
  unfold Attn.head
  refine Finset.sum_congr rfl fun k _ => ?_
  have el : lidx_main_v46 (ix4 b h n d) k = ix4 b h n k :=
    funext fun a => Fin.ext (by match a with | ⟨0, _⟩ => rfl | ⟨1, _⟩ => rfl | ⟨2, _⟩ => rfl | ⟨3, _⟩ => rfl)
  have er : ridx_main_v46 (ix4 b h n d) k = ix4 b h k d :=
    funext fun a => Fin.ext (by match a with | ⟨0, _⟩ => rfl | ⟨1, _⟩ => rfl | ⟨2, _⟩ => rfl | ⟨3, _⟩ => rfl)
  rw [el, er, v45_at]

end Cert.ReferenceIdeal.RefValue

end
-- ==== Proof.Claims.lean ====
/-
  The five claims. The two kernel frames are the hand-proved frame runs (one body, read at the word-level instance and at
  the extended reals); the reference's frame is its run with the result dropped; the idealization rewrote nothing, so
  `preserves` is trivial; and over the extended reals the kernel's result array and the reference's are both the
  attention function `Cert.Attn.G` of the six argument arrays, which agree between the two memories.
-/
import proofs.«156862_j47253230191316_2_alg».proof.Defs
import proofs.«156862_j47253230191316_2_alg».proof.Proof.Gen.Pre_finite_inputs
import proofs.«156862_j47253230191316_2_alg».proof.Proof.BitsFrame
import proofs.«156862_j47253230191316_2_alg».proof.Proof.IdealArray
import proofs.«156862_j47253230191316_2_alg».proof.Proof.RefRun
import proofs.«156862_j47253230191316_2_alg».proof.Proof.RefRead
import proofs.«156862_j47253230191316_2_alg».proof.Proof.RefValue

noncomputable section

namespace Cert.Proof.Claims

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at `Cert.Attn.G` of the arguments: the kernel's by its blocks, the reference's by
    its operations read one at a time. -/
theorem algebraic : Cert.algebraic_KernelIdeal_ReferenceIdeal := by
  intro m ρ m' ρ' _ hagree
  refine ⟨fun c => Cert.KernelIdeal.Body.Garr m c, Cert.KernelIdeal.Body.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, Cert.ReferenceIdeal.RefValue.ref_eq,
    (hagree c).1, (hagree c).2.1, (hagree c).2.2.1, (hagree c).2.2.2.1, (hagree c).2.2.2.2.1, (hagree c).2.2.2.2.2]

end Cert.Proof.Claims

end
-- ==== Proof.lean ====
/- The proof of `Cert.Claim`: frame_Kernel ∧ frame_KernelIdeal ∧ frame_ReferenceIdeal ∧ preserves_Kernel_KernelIdeal ∧
   algebraic_KernelIdeal_ReferenceIdeal, for a fused attention kernel with a shape-bias penalty against its jnp reference.
   The kernel works one batch and four heads per grid point; at the first head block of a batch it computes the batch's
   penalty matrix (pairwise patch distance times one minus the cosine similarity of the patch embeddings, zero on the
   class-token row and column) into a scratch that the batch's other head blocks read; each head is
   softmax((q · 1/8) kᵀ − penalty, masked with −10⁹) · v. Proof/Spec.lean states that function once; Proof/Claims.lean
   assembles the five claims from the body's two cases (Proof/IdealBody*.lean, Proof/BitsBody*.lean), the frame runs
   (Proof/IdealFrame.lean, Proof/BitsFrame.lean), the output array block by block (Proof/IdealPieces.lean …
   Proof/IdealArray.lean, Proof/PayloadValue.lean, Proof/IdealBlocks.lean) and the reference read one operation at a
   time (Proof/RefValue.lean over Proof/RefRead.lean). -/
import proofs.«156862_j47253230191316_2_alg».proof.Defs
import proofs.«156862_j47253230191316_2_alg».proof.Proof.Gen.Kernel
import proofs.«156862_j47253230191316_2_alg».proof.Proof.Gen.Kernel.Skeleton
import proofs.«156862_j47253230191316_2_alg».proof.Proof.Gen.Kernel.Loops
import proofs.«156862_j47253230191316_2_alg».proof.Proof.Gen.Kernel.Launch
import proofs.«156862_j47253230191316_2_alg».proof.Proof.Gen.Kernel.Points
import proofs.«156862_j47253230191316_2_alg».proof.Proof.Gen.Kernel.Frame
import proofs.«156862_j47253230191316_2_alg».proof.Proof.Gen.KernelIdeal
import proofs.«156862_j47253230191316_2_alg».proof.Proof.Gen.KernelIdeal.Skeleton
import proofs.«156862_j47253230191316_2_alg».proof.Proof.Gen.KernelIdeal.Loops
import proofs.«156862_j47253230191316_2_alg».proof.Proof.Gen.KernelIdeal.Launch
import proofs.«156862_j47253230191316_2_alg».proof.Proof.Gen.KernelIdeal.Points
import proofs.«156862_j47253230191316_2_alg».proof.Proof.Gen.KernelIdeal.Frame
import proofs.«156862_j47253230191316_2_alg».proof.Proof.Gen.ReferenceIdeal
import proofs.«156862_j47253230191316_2_alg».proof.Proof.Claims
import proofs.«156862_j47253230191316_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
